-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S8192x3 : Shape := ⟨2, ![8192, 3]⟩
abbrev S4096 : Shape := ⟨1, ![4096]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  bcast_S_S8192x3 : S_.BroadcastsInDim S8192x3 (![] : Fin 0 → Fin S8192x3.rank)
  reducesTo_S8192x3_S_d0_1 : S8192x3.ReducesTo [0, 1] S_

variable [Facts]

def fn {F : FTy → Type} [FloatOps F] (main_arg0 : FVec F S4096x3 .f32) (main_arg1 : FVec F S4096x3 .f32) (main_arg2 : FVec F S8192x3 .f32) (main_arg3 : IVec S4096 32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  let main_v4 : FVec F S4096x3 .f32 := Host.absf main_arg1
  let main_cst_0 : FVec F S_ .f32 := constant S_ .f32 0x7F800000#32
  let main_v5 : FVec F S4096x3 .f32 := broadcastInDim S4096x3 ![] bcast_S_S4096x3 main_cst_0
  let main_v6 : IVec S4096x3 1 := cmpf .olt main_v4 main_v5
  let main_c_1 : IVec S_ 1 := constantI S_ 1 1#1
  let main_v7 : IVec S_ 1 := (fun x v => Host.reduce IntOp.andi x v reducesTo_S4096x3_S_d0_1 h_S_) main_v6 main_c_1
  let main_v8 : IVec S_ 1 := andi main_v3 main_v7
  let main_v9 : FVec F S8192x3 .f32 := Host.absf main_arg2
  let main_cst_2 : FVec F S_ .f32 := constant S_ .f32 0x7F800000#32
  let main_v10 : FVec F S8192x3 .f32 := broadcastInDim S8192x3 ![] bcast_S_S8192x3 main_cst_2
  let main_v11 : IVec S8192x3 1 := cmpf .olt main_v9 main_v10
  let main_c_3 : IVec S_ 1 := constantI S_ 1 1#1
  let main_v12 : IVec S_ 1 := (fun x v => Host.reduce IntOp.andi x v reducesTo_S8192x3_S_d0_1 h_S_) main_v11 main_c_3
  let main_v13 : IVec S_ 1 := andi main_v8 main_v12
  main_v13
-- ==== Kernel.lean ====
abbrev S4096x3 : Shape := ⟨2, ![4096, 3]⟩
abbrev S8192x3 : Shape := ⟨2, ![8192, 3]⟩
abbrev S4096 : Shape := ⟨1, ![4096]⟩
abbrev S_ : Shape := ⟨0, ![]⟩
abbrev S4096x1 : Shape := ⟨2, ![4096, 1]⟩
abbrev S3x8192 : Shape := ⟨2, ![3, 8192]⟩
abbrev S8192 : Shape := ⟨1, ![8192]⟩
abbrev S1x8192 : Shape := ⟨2, ![1, 8192]⟩
abbrev S8192x1 : Shape := ⟨2, ![8192, 1]⟩
abbrev S1024x3 : Shape := ⟨2, ![1024, 3]⟩
abbrev S3x1024 : Shape := ⟨2, ![3, 1024]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 27
  | .vmem => 9
  | .smem => 0
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S8192x3, .f32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S8192x3, .f32⟩
  | .hbm, ⟨13, _⟩ => ⟨S4096x3, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S3x8192, .f32⟩
  | .hbm, ⟨19, _⟩ => ⟨S8192x3, .f32⟩
  | .hbm, ⟨20, _⟩ => ⟨S_, .f32⟩
  | .hbm, ⟨21, _⟩ => ⟨S8192, .f32⟩
  | .hbm, ⟨22, _⟩ => ⟨S1x8192, .f32⟩
  | .hbm, ⟨23, _⟩ => ⟨S8192x1, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S3x1024, .f32⟩
  | .local _ .vmem, ⟨3, _⟩ => ⟨S3x1024, .f32⟩
  | .local _ .vmem, ⟨4, _⟩ => ⟨S1x1024, .f32⟩
  | .local _ .vmem, ⟨5, _⟩ => ⟨S1x1024, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_8 : BitVec 32 := 0#32
  let v45 : BitVec 1 := Scalar.cmpi .ne v44 c0_i32_8
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096x3_S_d0_1 : S4096x3.ReducesTo [0, 1] S_
  h_S_ : 0 < S_.numel
  transposes_S8192x3_S3x8192_1_0 : S8192x3.Transposes [1, 0] S3x8192
  reducesTo_S8192x3_S8192_d1 : S8192x3.ReducesTo [1] S8192
  bcast_S8192_S1x8192_1 : S8192.BroadcastsInDim S1x8192 (![1] : Fin 1 → Fin S1x8192.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  slices_S3x1024_o0_0_S1x1024 : S3x1024.Slices ![0, 0] S1x1024
  slices_S3x1024_o1_0_S1x1024 : S3x1024.Slices ![1, 0] S1x1024
  slices_S3x1024_o2_0_S1x1024 : S3x1024.Slices ![2, 0] S1x1024
  broadcasts_S1024x1_S1024x1024 : S1024x1.Broadcasts S1024x1024
  broadcasts_S1x1024_S1024x1024 : S1x1024.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  reducesTo_S8192x1_S_d0_1 : S8192x1.ReducesTo [0, 1] S_
  scatter_S8192x3_S4096x1_S4096x3_1_0_0_1_wf : ScatterDims.WF S8192x3 S4096x1 S4096x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x8192.size a
  hwx0_1 : ∀ i : grid0.Coords, EltTy.bits .f32 = 32 ∨ (Rect.block (s := S3x8192) S3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def scatter_S8192x3_S4096x1_S4096x3_1_0_0_1 : ScatterDims S8192x3 S4096x1 S4096x3 where
  updateWindowDims := [1]
  insertedWindowDims := [0]
  scatterDimsToOperandDims := [0]
  indexVectorDim := 1
  wf := scatter_S8192x3_S4096x1_S4096x3_1_0_0_1_wf

abbrev win0_0 : Pipeline.Window sig grid0 :=
  Pipeline.Window.ofSpec (Memref.whole main_v6) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4096x3 : Shape := ⟨2, ![4096, 3]⟩
abbrev S8192x3 : Shape := ⟨2, ![8192, 3]⟩
abbrev S4096 : Shape := ⟨1, ![4096]⟩
abbrev S_ : Shape := ⟨0, ![]⟩
abbrev S4096x1 : Shape := ⟨2, ![4096, 1]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩

abbrev nBuf : Space → Nat
  | .hbm => 53
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S8192x3, .f32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S8192x3, .f32⟩
  | .hbm, ⟨13, _⟩ => ⟨S4096x3, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x3, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S1x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S3x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .i32⟩
  | .hbm, ⟨33, _⟩ => ⟨S8192x8192, .i32⟩
  | .hbm, ⟨34, _⟩ => ⟨S_, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S_, .f32⟩
  | .hbm, ⟨52, _⟩ => ⟨S_, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096x3_S_d0_1 : S4096x3.ReducesTo [0, 1] S_
  h_S_ : 0 < S_.numel
  reducesTo_S8192x3_S8192_d1 : S8192x3.ReducesTo [1] S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  reducesTo_S8192x8192_S_d0_1 : S8192x8192.ReducesTo [0, 1] S_
  scatter_S8192x3_S4096x1_S4096x3_1_0_0_1_wf : ScatterDims.WF S8192x3 S4096x1 S4096x3 [1] [0] [0] 1
  dot_S8192x3_S3x8192_S8192x8192_1_0_0_1_n_n_wf : DotDims.WF S8192x3 S3x8192 S8192x8192 [1] [0] [0] [1] [] []

variable [Facts₀]

def scatter_S8192x3_S4096x1_S4096x3_1_0_0_1 : ScatterDims S8192x3 S4096x1 S4096x3 where
  updateWindowDims := [1]
  insertedWindowDims := [0]
  scatterDimsToOperandDims := [0]
  indexVectorDim := 1
  wf := scatter_S8192x3_S4096x1_S4096x3_1_0_0_1_wf
def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.KernelAcc.lean ====
/-
  What the kernel's row-sum accumulator holds after each grid point, as a recursion on the point.

  The grid is 8 × 8, point `n` standing for row tile `n / 8` and column tile `n % 8`. At a point the body
    · starts from the zero column if the column tile is the first (`n % 8 = 0`), else from what the point before left,
    · adds the row sums of the tile's inverse distances — through the masked payload on a diagonal tile
      (`n / 8 = n % 8`: the skeleton's `k0_pay3`), through the unmasked one elsewhere (`k0_pay4`).
  The three blocks the payloads read are the windows' blocks at the point (`Gen.iblk`).
-/
import proofs.«131069_j41446434406802_2_alg».proof.Proof.Gen.Kernel.Frame
import proofs.«131069_j41446434406802_2_alg».proof.Proof.Gen.Kernel.Skeleton

noncomputable section

namespace Cert.Kernel.Body

open Idealize.ShloMosaic Idealize.ShloMosaic.TcCoe Idealize.SL.Sem
open Cert.Kernel Cert.Kernel.Gen

variable {F : FTy → Type} [FloatOps F]
variable (m : (ℓ : Loc nD τ sig) → Buf (Elt F) ℓ)

/-- The accumulator after point `n`: the tile's payload over the zero column or over the point before. -/
def accAt (c : Dev nD) : (n : ℕ) → n < cfg0.N → Vec F S1024x1 .f32
  | 0, hn => k0_pay3 (iblk m c 0 ⟨0, hn⟩) (iblk m c 1 ⟨0, hn⟩) (iblk m c 2 ⟨0, hn⟩) (k0_pay1 (F := F))
  | n + 1, hn =>
    if (n + 1) / 8 = (n + 1) % 8 then
      k0_pay3 (iblk m c 0 ⟨n + 1, hn⟩) (iblk m c 1 ⟨n + 1, hn⟩) (iblk m c 2 ⟨n + 1, hn⟩)
        (if (n + 1) % 8 = 0 then k0_pay1 (F := F) else accAt c n (Nat.lt_of_succ_lt hn))
    else
      k0_pay4 (iblk m c 0 ⟨n + 1, hn⟩) (iblk m c 1 ⟨n + 1, hn⟩) (iblk m c 2 ⟨n + 1, hn⟩)
        (if (n + 1) % 8 = 0 then k0_pay1 (F := F) else accAt c n (Nat.lt_of_succ_lt hn))

/-- The recursion at the first point. -/
theorem accAt_zero (c : Dev nD) (hn : 0 < cfg0.N) :
    accAt m c 0 hn = k0_pay3 (iblk m c 0 ⟨0, hn⟩) (iblk m c 1 ⟨0, hn⟩) (iblk m c 2 ⟨0, hn⟩) (k0_pay1 (F := F)) := rfl

/-- The recursion at a later point. -/
theorem accAt_succ (c : Dev nD) (n : ℕ) (hn : n + 1 < cfg0.N) :
    accAt m c (n + 1) hn =
      if (n + 1) / 8 = (n + 1) % 8 then
        k0_pay3 (iblk m c 0 ⟨n + 1, hn⟩) (iblk m c 1 ⟨n + 1, hn⟩) (iblk m c 2 ⟨n + 1, hn⟩)
          (if (n + 1) % 8 = 0 then k0_pay1 (F := F) else accAt m c n (Nat.lt_of_succ_lt hn))
      else
        k0_pay4 (iblk m c 0 ⟨n + 1, hn⟩) (iblk m c 1 ⟨n + 1, hn⟩) (iblk m c 2 ⟨n + 1, hn⟩)
          (if (n + 1) % 8 = 0 then k0_pay1 (F := F) else accAt m c n (Nat.lt_of_succ_lt hn)) := rfl

end Cert.Kernel.Body

end
-- ==== Proof.KernelBodyShared.lean ====
/-
  What the control cases of the kernel body share.

  The body branches four times on the grid point (row tile `i`, column tile `j`; point `t = 8 i + j`):
    · `j = 0`: the accumulator is reset to the zero column;
    · `i = j`: a diagonal tile, whose own diagonal entries are masked before the row sums are added;
    · `i ≠ j`: an off-diagonal tile, added unmasked;
    · `j = 7`: the accumulator is copied into the output block, which the pipeline then writes back.
  Each condition is decided here over the 64 points in closed form (`t % 8`, `t / 8`), as is where the output window is
  idle (everywhere but `j = 7`, where alone it is written back). The staging memrefs at a point, the scratch operand,
  and the region invariant restated with the scratch as a memref follow.
-/
import proofs.«131069_j41446434406802_2_alg».proof.Proof.Gen.Kernel.Frame
import proofs.«131069_j41446434406802_2_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, decided over the grid -/

/-- The column tile is the first: the reset. -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The tile is diagonal. -/
abbrev cond0_1 (i : grid0.Coords) : Prop :=
  (Scalar.cmpi .ne (Scalar.extui (Scalar.cmpi .eq (BitVec.ofNat 32 (i 0).val) (BitVec.ofNat 32 (i 1).val))) 0#32) = 1#1
theorem hcond0_1 : ∀ t : Fin cfg0.N, cond0_1 (grid0.coords t) ↔ t.val / 8 = t.val % 8 :=
  (by decide +kernel : ∀ t : Fin grid0.N, cond0_1 (grid0.coords t) ↔ t.val / 8 = t.val % 8)

/-- The tile is off the diagonal. -/
abbrev cond0_2 (i : grid0.Coords) : Prop :=
  (Scalar.cmpi .ne (Scalar.extui (Scalar.cmpi .ne (BitVec.ofNat 32 (i 0).val) (BitVec.ofNat 32 (i 1).val))) 0#32) = 1#1
theorem hcond0_2 : ∀ t : Fin cfg0.N, cond0_2 (grid0.coords t) ↔ ¬ t.val / 8 = t.val % 8 :=
  (by decide +kernel : ∀ t : Fin grid0.N, cond0_2 (grid0.coords t) ↔ ¬ t.val / 8 = t.val % 8)

/-- The column tile is the last: the accumulator goes to the output block. -/
abbrev cond0_3 (i : grid0.Coords) : Prop := k0_cond4 i = 1#1
theorem hcond0_3 : ∀ t : Fin cfg0.N, cond0_3 (grid0.coords t) ↔ t.val % 8 = 7 :=
  (by decide +kernel : ∀ t : Fin grid0.N, cond0_3 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last column tile the body stores nothing into the output block, -/
theorem idleAt0_3 : ∀ t : Fin cfg0.N, ¬cond0_3 (grid0.coords t) → cfg0.idle 3 (grid0.coords t) = true := by decide +kernel
/-- and the pipeline does not write it back there. -/
theorem noFlush0_3 : ∀ t : Fin cfg0.N, ¬cond0_3 (grid0.coords t) → (cfg0.win 3).flush t = false := by decide +kernel
/-- At the last column tile the body stores into it. -/
theorem liveAt0_3 : ∀ t : Fin cfg0.N, cond0_3 (grid0.coords t) → cfg0.idle 3 (grid0.coords t) = false := by decide +kernel

/-! ## The memrefs the body is called with -/

abbrev ms0_0 (t : Fin cfg0.N) : Memref sig .tc .vmem S1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1 .f32 := Memref.whole cc0_scratch0

theorem hz : (![0, 0] : Fin 2 → Nat) = fun _ => 0 := funext fun a => by fin_cases a <;> rfl

/-- The region invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Body

end
-- ==== Proof.KernelBodyRuns.lean ====
/-
  The kernel body run once in each of its six control cases. A case fixes which of the four branches are taken:
  reset or carry the accumulator; a diagonal or an off-diagonal tile; copy the accumulator to the output block or not.
  In each the body is run symbolically on whole memrefs, and what it leaves in every buffer it stores into is a list
  of whole-buffer stores, newest first, which the run finds.
-/
import proofs.«131069_j41446434406802_2_alg».proof.Proof.KernelBodyShared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in this case — the first point: reset, then a diagonal tile — on whole memrefs: the three input blocks at their contents, the output block
    handed back untouched, the accumulator at anything; it runs to the continuation with the inputs
    as they were and each buffer it stored into with its stores written, newest first (the lists the run finds). -/
noncomputable def kernelRun0_A (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i) (hc3 : ¬cond0_3 i)
    (x0 : Vec F S1024x3 .f32) (x1 : Vec F S3x1024 .f32) (x2 : Vec F S1x1024 .f32) :
    { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__potential_kernel i arg2 harg2 arg3 harg3 arg4 harg4 arg5 harg5 arg6 harg6) K } := by
  refine ⟨?_, fun xi3 E K => ?run⟩
  case run =>
    simp only [cc0__potential_kernel_eq_skeleton]; unfold cc0__potential_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The body in this case — a later row tile's first column tile: reset, then an off-diagonal tile — on whole memrefs: the three input blocks at their contents, the output block
    handed back untouched, the accumulator at anything; it runs to the continuation with the inputs
    as they were and each buffer it stored into with its stores written, newest first (the lists the run finds). -/
noncomputable def kernelRun0_B (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : cond0_2 i) (hc3 : ¬cond0_3 i)
    (x0 : Vec F S1024x3 .f32) (x1 : Vec F S3x1024 .f32) (x2 : Vec F S1x1024 .f32) :
    { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__potential_kernel i arg2 harg2 arg3 harg3 arg4 harg4 arg5 harg5 arg6 harg6) K } := by
  refine ⟨?_, fun xi3 E K => ?run⟩
  case run =>
    simp only [cc0__potential_kernel_eq_skeleton]; unfold cc0__potential_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The body in this case — a diagonal tile in a middle column — on whole memrefs: the three input blocks at their contents, the output block
    handed back untouched, the accumulator at what the point before left; it runs to the continuation with the inputs
    as they were and each buffer it stored into with its stores written, newest first (the lists the run finds). -/
noncomputable def kernelRun0_C (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : ¬cond0_3 i)
    (x0 : Vec F S1024x3 .f32) (x1 : Vec F S3x1024 .f32) (x2 : Vec F S1x1024 .f32) (xs0 : Vec F S1024x1 .f32) :
    { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__potential_kernel i arg2 harg2 arg3 harg3 arg4 harg4 arg5 harg5 arg6 harg6) K } := by
  refine ⟨?_, fun xi3 E K => ?run⟩
  case run =>
    simp only [cc0__potential_kernel_eq_skeleton]; unfold cc0__potential_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The body in this case — an off-diagonal tile in a middle column — on whole memrefs: the three input blocks at their contents, the output block
    handed back untouched, the accumulator at what the point before left; it runs to the continuation with the inputs
    as they were and each buffer it stored into with its stores written, newest first (the lists the run finds). -/
noncomputable def kernelRun0_D (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : ¬cond0_3 i)
    (x0 : Vec F S1024x3 .f32) (x1 : Vec F S3x1024 .f32) (x2 : Vec F S1x1024 .f32) (xs0 : Vec F S1024x1 .f32) :
    { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__potential_kernel i arg2 harg2 arg3 harg3 arg4 harg4 arg5 harg5 arg6 harg6) K } := by
  refine ⟨?_, fun xi3 E K => ?run⟩
  case run =>
    simp only [cc0__potential_kernel_eq_skeleton]; unfold cc0__potential_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The body in this case — the last point: a diagonal tile in the last column, then the copy to the output block — on whole memrefs: the three input blocks at their contents, the output block
    at anything, the accumulator at what the point before left; it runs to the continuation with the inputs
    as they were and each buffer it stored into with its stores written, newest first (the lists the run finds). -/
noncomputable def kernelRun0_E (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i)
    (x0 : Vec F S1024x3 .f32) (x1 : Vec F S3x1024 .f32) (x2 : Vec F S1x1024 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__potential_kernel i arg2 harg2 arg3 harg3 arg4 harg4 arg5 harg5 arg6 harg6) K } := by
  refine ⟨?_, ?_, fun E K => ?run⟩
  case run =>
    simp only [cc0__potential_kernel_eq_skeleton]; unfold cc0__potential_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

set_option maxHeartbeats 4000000 in
/-- The body in this case — an off-diagonal tile in the last column, then the copy to the output block — on whole memrefs: the three input blocks at their contents, the output block
    at anything, the accumulator at what the point before left; it runs to the continuation with the inputs
    as they were and each buffer it stored into with its stores written, newest first (the lists the run finds). -/
noncomputable def kernelRun0_G (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i)
    (x0 : Vec F S1024x3 .f32) (x1 : Vec F S3x1024 .f32) (x2 : Vec F S1x1024 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__potential_kernel i arg2 harg2 arg3 harg3 arg4 harg4 arg5 harg5 arg6 harg6) K } := by
  refine ⟨?_, ?_, fun E K => ?run⟩
  case run =>
    simp only [cc0__potential_kernel_eq_skeleton]; unfold cc0__potential_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Body

end
-- ==== Proof.KernelBodyValues.lean ====
/-
  What each control case of the kernel body leaves in the buffers it stores into, as values. Every store of the body
  writes a whole [1024,1] column, so a buffer reads back its newest store: the accumulator ends at the tile's payload —
  the masked row sums on a diagonal tile, the unmasked ones elsewhere — added to the zero column (after a reset) or to
  what the point before left; the output block, where it is stored, ends at that same column.
-/
import proofs.«131069_j41446434406802_2_alg».proof.Proof.KernelBodyRuns
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In case A the accumulator's stores cover it (each is a store of the whole column). -/
theorem scover0_A (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i) (hc3 : ¬cond0_3 i) (x0 : Vec F S1024x3 .f32) (x1 : Vec F S3x1024 .f32) (x2 : Vec F S1x1024 .f32) (y : S1024x1.Idx) :
    ∃ pc ∈ (kernelRun0_A c i arg2 harg2 arg3 harg3 arg4 harg4 arg5 harg5 arg6 harg6 hc0 hc1 hc2 hc3 x0 x1 x2).1, y ∈ pc.1.set :=
  View.cover_of_tiledL (kernelRun0_A c i arg2 harg2 arg3 harg3 arg4 harg4 arg5 harg5 arg6 harg6 hc0 hc1 hc2 hc3 x0 x1 x2).1 S1024x1.size (by sl_kernel_rfl) y

/-- What case A leaves in the accumulator, read through any view over any former contents: the tile's payload over
    the zero column. -/
theorem sval0_A (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i) (hc3 : ¬cond0_3 i) (x0 : Vec F S1024x3 .f32) (x1 : Vec F S3x1024 .f32) (x2 : Vec F S1x1024 .f32) (v : View sig .tc .vmem S1024x1 .f32) (f : v.ty.Contents (Elt F)) :
    v.read (Elt F) (v.writes (Elt F) f (kernelRun0_A c i arg2 harg2 arg3 harg3 arg4 harg4 arg5 harg5 arg6 harg6 hc0 hc1 hc2 hc3 x0 x1 x2).1) = k0_pay3 x0 x1 x2 (k0_pay1 (F := F)) := by
  rw [View.read_writes_eq_canon _ _ _ (scover0_A c i arg2 harg2 arg3 harg3 arg4 harg4 arg5 harg5 arg6 harg6 hc0 hc1 hc2 hc3 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

/-- In case B the accumulator's stores cover it (each is a store of the whole column). -/
theorem scover0_B (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : cond0_2 i) (hc3 : ¬cond0_3 i) (x0 : Vec F S1024x3 .f32) (x1 : Vec F S3x1024 .f32) (x2 : Vec F S1x1024 .f32) (y : S1024x1.Idx) :
    ∃ pc ∈ (kernelRun0_B c i arg2 harg2 arg3 harg3 arg4 harg4 arg5 harg5 arg6 harg6 hc0 hc1 hc2 hc3 x0 x1 x2).1, y ∈ pc.1.set :=
  View.cover_of_tiledL (kernelRun0_B c i arg2 harg2 arg3 harg3 arg4 harg4 arg5 harg5 arg6 harg6 hc0 hc1 hc2 hc3 x0 x1 x2).1 S1024x1.size (by sl_kernel_rfl) y

/-- What case B leaves in the accumulator, read through any view over any former contents: the tile's payload over
    the zero column. -/
theorem sval0_B (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : cond0_2 i) (hc3 : ¬cond0_3 i) (x0 : Vec F S1024x3 .f32) (x1 : Vec F S3x1024 .f32) (x2 : Vec F S1x1024 .f32) (v : View sig .tc .vmem S1024x1 .f32) (f : v.ty.Contents (Elt F)) :
    v.read (Elt F) (v.writes (Elt F) f (kernelRun0_B c i arg2 harg2 arg3 harg3 arg4 harg4 arg5 harg5 arg6 harg6 hc0 hc1 hc2 hc3 x0 x1 x2).1) = k0_pay4 x0 x1 x2 (k0_pay1 (F := F)) := by
  rw [View.read_writes_eq_canon _ _ _ (scover0_B c i arg2 harg2 arg3 harg3 arg4 harg4 arg5 harg5 arg6 harg6 hc0 hc1 hc2 hc3 x0 x1 x2)]
  unfold kernelRun0_B
  dsimp only
  sl_unfold_words
  rw [View.canon_cons_unit_zero (S := S1024x1) hz, View.readCov_unit_zero (S := S1024x1) _ hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

/-- In case C the accumulator's stores cover it (each is a store of the whole column). -/
theorem scover0_C (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : ¬cond0_3 i) (x0 : Vec F S1024x3 .f32) (x1 : Vec F S3x1024 .f32) (x2 : Vec F S1x1024 .f32) (xs0 : Vec F S1024x1 .f32) (y : S1024x1.Idx) :
    ∃ pc ∈ (kernelRun0_C c i arg2 harg2 arg3 harg3 arg4 harg4 arg5 harg5 arg6 harg6 hc0 hc1 hc2 hc3 x0 x1 x2 xs0).1, y ∈ pc.1.set :=
  View.cover_of_tiledL (kernelRun0_C c i arg2 harg2 arg3 harg3 arg4 harg4 arg5 harg5 arg6 harg6 hc0 hc1 hc2 hc3 x0 x1 x2 xs0).1 S1024x1.size (by sl_kernel_rfl) y

/-- What case C leaves in the accumulator, read through any view over any former contents: the tile's payload over
    what the point before left. -/
theorem sval0_C (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : ¬cond0_3 i) (x0 : Vec F S1024x3 .f32) (x1 : Vec F S3x1024 .f32) (x2 : Vec F S1x1024 .f32) (xs0 : Vec F S1024x1 .f32) (v : View sig .tc .vmem S1024x1 .f32) (f : v.ty.Contents (Elt F)) :
    v.read (Elt F) (v.writes (Elt F) f (kernelRun0_C c i arg2 harg2 arg3 harg3 arg4 harg4 arg5 harg5 arg6 harg6 hc0 hc1 hc2 hc3 x0 x1 x2 xs0).1) = k0_pay3 x0 x1 x2 xs0 := by
  rw [View.read_writes_eq_canon _ _ _ (scover0_C c i arg2 harg2 arg3 harg3 arg4 harg4 arg5 harg5 arg6 harg6 hc0 hc1 hc2 hc3 x0 x1 x2 xs0)]
  unfold kernelRun0_C
  dsimp only
  sl_unfold_words
  rw [View.canon_unit_zero (S := S1024x1) hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

/-- In case D the accumulator's stores cover it (each is a store of the whole column). -/
theorem scover0_D (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : ¬cond0_3 i) (x0 : Vec F S1024x3 .f32) (x1 : Vec F S3x1024 .f32) (x2 : Vec F S1x1024 .f32) (xs0 : Vec F S1024x1 .f32) (y : S1024x1.Idx) :
    ∃ pc ∈ (kernelRun0_D c i arg2 harg2 arg3 harg3 arg4 harg4 arg5 harg5 arg6 harg6 hc0 hc1 hc2 hc3 x0 x1 x2 xs0).1, y ∈ pc.1.set :=
  View.cover_of_tiledL (kernelRun0_D c i arg2 harg2 arg3 harg3 arg4 harg4 arg5 harg5 arg6 harg6 hc0 hc1 hc2 hc3 x0 x1 x2 xs0).1 S1024x1.size (by sl_kernel_rfl) y

/-- What case D leaves in the accumulator, read through any view over any former contents: the tile's payload over
    what the point before left. -/
theorem sval0_D (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : ¬cond0_3 i) (x0 : Vec F S1024x3 .f32) (x1 : Vec F S3x1024 .f32) (x2 : Vec F S1x1024 .f32) (xs0 : Vec F S1024x1 .f32) (v : View sig .tc .vmem S1024x1 .f32) (f : v.ty.Contents (Elt F)) :
    v.read (Elt F) (v.writes (Elt F) f (kernelRun0_D c i arg2 harg2 arg3 harg3 arg4 harg4 arg5 harg5 arg6 harg6 hc0 hc1 hc2 hc3 x0 x1 x2 xs0).1) = k0_pay4 x0 x1 x2 xs0 := by
  rw [View.read_writes_eq_canon _ _ _ (scover0_D c i arg2 harg2 arg3 harg3 arg4 harg4 arg5 harg5 arg6 harg6 hc0 hc1 hc2 hc3 x0 x1 x2 xs0)]
  unfold kernelRun0_D
  dsimp only
  sl_unfold_words
  rw [View.canon_unit_zero (S := S1024x1) hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

/-- In case E the accumulator's stores cover it (each is a store of the whole column). -/
theorem scover0_E (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i) (x0 : Vec F S1024x3 .f32) (x1 : Vec F S3x1024 .f32) (x2 : Vec F S1x1024 .f32) (xs0 : Vec F S1024x1 .f32) (y : S1024x1.Idx) :
    ∃ pc ∈ (kernelRun0_E c i arg2 harg2 arg3 harg3 arg4 harg4 arg5 harg5 arg6 harg6 hc0 hc1 hc2 hc3 x0 x1 x2 xs0).2.1, y ∈ pc.1.set :=
  View.cover_of_tiledL (kernelRun0_E c i arg2 harg2 arg3 harg3 arg4 harg4 arg5 harg5 arg6 harg6 hc0 hc1 hc2 hc3 x0 x1 x2 xs0).2.1 S1024x1.size (by sl_kernel_rfl) y

/-- What case E leaves in the accumulator, read through any view over any former contents: the tile's payload over
    what the point before left. -/
theorem sval0_E (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i) (x0 : Vec F S1024x3 .f32) (x1 : Vec F S3x1024 .f32) (x2 : Vec F S1x1024 .f32) (xs0 : Vec F S1024x1 .f32) (v : View sig .tc .vmem S1024x1 .f32) (f : v.ty.Contents (Elt F)) :
    v.read (Elt F) (v.writes (Elt F) f (kernelRun0_E c i arg2 harg2 arg3 harg3 arg4 harg4 arg5 harg5 arg6 harg6 hc0 hc1 hc2 hc3 x0 x1 x2 xs0).2.1) = k0_pay3 x0 x1 x2 xs0 := by
  rw [View.read_writes_eq_canon _ _ _ (scover0_E c i arg2 harg2 arg3 harg3 arg4 harg4 arg5 harg5 arg6 harg6 hc0 hc1 hc2 hc3 x0 x1 x2 xs0)]
  unfold kernelRun0_E
  dsimp only
  sl_unfold_words
  rw [View.canon_unit_zero (S := S1024x1) hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

/-- In case E the output block's one store covers it. -/
theorem cover0_E (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i) (x0 : Vec F S1024x3 .f32) (x1 : Vec F S3x1024 .f32) (x2 : Vec F S1x1024 .f32) (xs0 : Vec F S1024x1 .f32) (y : S1024x1.Idx) :
    ∃ pc ∈ (kernelRun0_E c i arg2 harg2 arg3 harg3 arg4 harg4 arg5 harg5 arg6 harg6 hc0 hc1 hc2 hc3 x0 x1 x2 xs0).1, y ∈ pc.1.set :=
  View.cover_of_tiledL (kernelRun0_E c i arg2 harg2 arg3 harg3 arg4 harg4 arg5 harg5 arg6 harg6 hc0 hc1 hc2 hc3 x0 x1 x2 xs0).1 S1024x1.size (by sl_kernel_rfl) y

/-- What case E leaves in the output block: the accumulator it has just updated. -/
theorem oval0_E (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i) (x0 : Vec F S1024x3 .f32) (x1 : Vec F S3x1024 .f32) (x2 : Vec F S1x1024 .f32) (xs0 : Vec F S1024x1 .f32) (v : View sig .tc .vmem S1024x1 .f32) (f : v.ty.Contents (Elt F)) :
    v.read (Elt F) (v.writes (Elt F) f (kernelRun0_E c i arg2 harg2 arg3 harg3 arg4 harg4 arg5 harg5 arg6 harg6 hc0 hc1 hc2 hc3 x0 x1 x2 xs0).1) = k0_pay3 x0 x1 x2 xs0 := by
  rw [View.read_writes_eq_canon _ _ _ (cover0_E c i arg2 harg2 arg3 harg3 arg4 harg4 arg5 harg5 arg6 harg6 hc0 hc1 hc2 hc3 x0 x1 x2 xs0)]
  unfold kernelRun0_E
  dsimp only
  sl_unfold_words
  rw [View.canon_unit_zero (S := S1024x1) hz, View.readCov_unit_zero (S := S1024x1) _ hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

/-- In case G the accumulator's stores cover it (each is a store of the whole column). -/
theorem scover0_G (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i) (x0 : Vec F S1024x3 .f32) (x1 : Vec F S3x1024 .f32) (x2 : Vec F S1x1024 .f32) (xs0 : Vec F S1024x1 .f32) (y : S1024x1.Idx) :
    ∃ pc ∈ (kernelRun0_G c i arg2 harg2 arg3 harg3 arg4 harg4 arg5 harg5 arg6 harg6 hc0 hc1 hc2 hc3 x0 x1 x2 xs0).2.1, y ∈ pc.1.set :=
  View.cover_of_tiledL (kernelRun0_G c i arg2 harg2 arg3 harg3 arg4 harg4 arg5 harg5 arg6 harg6 hc0 hc1 hc2 hc3 x0 x1 x2 xs0).2.1 S1024x1.size (by sl_kernel_rfl) y

/-- What case G leaves in the accumulator, read through any view over any former contents: the tile's payload over
    what the point before left. -/
theorem sval0_G (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i) (x0 : Vec F S1024x3 .f32) (x1 : Vec F S3x1024 .f32) (x2 : Vec F S1x1024 .f32) (xs0 : Vec F S1024x1 .f32) (v : View sig .tc .vmem S1024x1 .f32) (f : v.ty.Contents (Elt F)) :
    v.read (Elt F) (v.writes (Elt F) f (kernelRun0_G c i arg2 harg2 arg3 harg3 arg4 harg4 arg5 harg5 arg6 harg6 hc0 hc1 hc2 hc3 x0 x1 x2 xs0).2.1) = k0_pay4 x0 x1 x2 xs0 := by
  rw [View.read_writes_eq_canon _ _ _ (scover0_G c i arg2 harg2 arg3 harg3 arg4 harg4 arg5 harg5 arg6 harg6 hc0 hc1 hc2 hc3 x0 x1 x2 xs0)]
  unfold kernelRun0_G
  dsimp only
  sl_unfold_words
  rw [View.canon_unit_zero (S := S1024x1) hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

/-- In case G the output block's one store covers it. -/
theorem cover0_G (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i) (x0 : Vec F S1024x3 .f32) (x1 : Vec F S3x1024 .f32) (x2 : Vec F S1x1024 .f32) (xs0 : Vec F S1024x1 .f32) (y : S1024x1.Idx) :
    ∃ pc ∈ (kernelRun0_G c i arg2 harg2 arg3 harg3 arg4 harg4 arg5 harg5 arg6 harg6 hc0 hc1 hc2 hc3 x0 x1 x2 xs0).1, y ∈ pc.1.set :=
  View.cover_of_tiledL (kernelRun0_G c i arg2 harg2 arg3 harg3 arg4 harg4 arg5 harg5 arg6 harg6 hc0 hc1 hc2 hc3 x0 x1 x2 xs0).1 S1024x1.size (by sl_kernel_rfl) y

/-- What case G leaves in the output block: the accumulator it has just updated. -/
theorem oval0_G (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i) (x0 : Vec F S1024x3 .f32) (x1 : Vec F S3x1024 .f32) (x2 : Vec F S1x1024 .f32) (xs0 : Vec F S1024x1 .f32) (v : View sig .tc .vmem S1024x1 .f32) (f : v.ty.Contents (Elt F)) :
    v.read (Elt F) (v.writes (Elt F) f (kernelRun0_G c i arg2 harg2 arg3 harg3 arg4 harg4 arg5 harg5 arg6 harg6 hc0 hc1 hc2 hc3 x0 x1 x2 xs0).1) = k0_pay4 x0 x1 x2 xs0 := by
  rw [View.read_writes_eq_canon _ _ _ (cover0_G c i arg2 harg2 arg3 harg3 arg4 harg4 arg5 harg5 arg6 harg6 hc0 hc1 hc2 hc3 x0 x1 x2 xs0)]
  unfold kernelRun0_G
  dsimp only
  sl_unfold_words
  rw [View.canon_unit_zero (S := S1024x1) hz, View.readCov_unit_zero (S := S1024x1) _ hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

end Cert.Kernel.Body

end
-- ==== Proof.KernelBodyFrame.lean ====
/-
  The frame of the kernel region, for any float instance: the proof data of the pipeline, the body obligation, and the
  run of @main around the region.

  The accumulator is carried between grid points, so the region invariant names its contents: before the first point
  anything; after point `n` the recursion `accAt` (Acc.lean). After the body each input's staging buffer holds its
  block, and the output's holds the accumulator — it is stored, and written back, only in the last column tile; at every
  other point the output window is idle and its buffer is handed back untouched. At a point the closed forms of the four
  branch conditions choose one of the six control cases, whose run (BodyRuns.lean) and values (BodyValues.lean) apply.
-/
import proofs.«131069_j41446434406802_2_alg».proof.Proof.KernelAcc
import proofs.«131069_j41446434406802_2_alg».proof.Proof.KernelBodyValues

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator at a point -/

/-- What a point starts from: the zero column in the first column tile, else what the point before left. -/
def startAt (c : Dev nD) (t : Fin cfg0.N) : Vec F S1024x1 .f32 :=
  if t.val % 8 = 0 then k0_pay1 (F := F) else accAt m c (t.val - 1) (Nat.lt_of_le_of_lt (Nat.sub_le _ _) t.isLt)

/-- The recursion at a point of the grid: the tile's payload over what the point starts from. -/
theorem accAt_point' (c : Dev nD) : ∀ (n : ℕ) (hn : n < cfg0.N),
    accAt m c n hn =
      if n / 8 = n % 8 then k0_pay3 (iblk m c 0 ⟨n, hn⟩) (iblk m c 1 ⟨n, hn⟩) (iblk m c 2 ⟨n, hn⟩) (startAt m c ⟨n, hn⟩)
      else k0_pay4 (iblk m c 0 ⟨n, hn⟩) (iblk m c 1 ⟨n, hn⟩) (iblk m c 2 ⟨n, hn⟩) (startAt m c ⟨n, hn⟩)
  | 0, hn => by rw [accAt_zero]; simp [startAt]
  | n + 1, hn => accAt_succ m c n hn

theorem accAt_point (c : Dev nD) (t : Fin cfg0.N) :
    accAt m c t.val t.isLt =
      if t.val / 8 = t.val % 8 then k0_pay3 (iblk m c 0 t) (iblk m c 1 t) (iblk m c 2 t) (startAt m c t)
      else k0_pay4 (iblk m c 0 t) (iblk m c 1 t) (iblk m c 2 t) (startAt m c t) :=
  accAt_point' m c t.val t.isLt

/-! ## The region invariant -/

/-- Before point `n`: at the first point the class's invariant (the accumulator at anything); afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The proof data -/

/-- The arrays as the region finds them; after the body each input at its block, the output at the accumulator;
    the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the inputs' memrefs hold their blocks; the closed forms say which case the point is in; the
    invariant hands the body the accumulator (at anything at the first point, else at what the point before left) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 8 = 0
  · have h3 : ¬t.val % 8 = 7 := by omega
    by_cases h1 : t.val / 8 = t.val % 8
    · have hz0 : t.val = 0 := by omega
      rw [Dat.leavesExact_idle (dats m 0 c) 3 t (idleAt0_3 t (fun h => h3 ((hcond0_3 t).mp h))) (noFlush0_3 t (fun h => h3 ((hcond0_3 t).mp h)))]
      rw [accAt_point m c t, if_pos h1]
      unfold startAt; rw [if_pos h0]
      rw [PhiS_castSucc m c t, PhiS_zero m c _ _ hz0, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) ((hcond0_1 t).mpr h1) (fun h => ((hcond0_2 t).mp h) h1) (fun h => h3 ((hcond0_3 t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact sval0_A ..
        iexact Hg
      isplitl [Ho]; · iexact Ho
      isplitl [H0]; · iexact H0
      isplitl [H1]; · iexact H1
      isplitl [H2]; · iexact H2
      iexists _; iexact H3
    · have hz0 : t.val ≠ 0 := by omega
      rw [Dat.leavesExact_idle (dats m 0 c) 3 t (idleAt0_3 t (fun h => h3 ((hcond0_3 t).mp h))) (noFlush0_3 t (fun h => h3 ((hcond0_3 t).mp h)))]
      rw [accAt_point m c t, if_neg h1]
      unfold startAt; rw [if_pos h0]
      rw [PhiS_castSucc m c t, PhiS_pos m c _ _ hz0]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ ((hcond0_0 t).mpr h0) (fun h => h1 ((hcond0_1 t).mp h)) ((hcond0_2 t).mpr h1) (fun h => h3 ((hcond0_3 t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact sval0_B ..
        iexact Hg
      isplitl [Ho]; · iexact Ho
      isplitl [H0]; · iexact H0
      isplitl [H1]; · iexact H1
      isplitl [H2]; · iexact H2
      iexists _; iexact H3
  · have hz0 : t.val ≠ 0 := by omega
    by_cases h3 : t.val % 8 = 7
    · by_cases h1 : t.val / 8 = t.val % 8
      · rw [show (dats m 0 c).leavesExact 3 t = owns (c : Thread nD τ) (ms0_3 t) fullShare ((dats m 0 c).after 3 t) from by
          unfold Dat.leavesExact; rw [liveAt0_3 t ((hcond0_3 t).mpr h3)], after0_3]
        rw [accAt_point m c t, if_pos h1]
        unfold startAt; rw [if_neg h0]
        rw [PhiS_castSucc m c t, PhiS_pos m c _ _ hz0]
        iintro ⟨⟨HS0, Hg⟩, Ho, ⟨%d0, H0⟩, ⟨%d1, H1⟩, ⟨%d2, H2⟩, ⟨%d3, H3⟩⟩
        iapply ((kernelRun0_E c (grid0.coords t) _ _ _ _ _ _ _ _ _ _ (fun h => h0 ((hcond0_0 t).mp h)) ((hcond0_1 t).mpr h1) (fun h => ((hcond0_2 t).mp h) h1) ((hcond0_3 t).mpr h3) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact sval0_E ..
          iexact Hg
        isplitl [Ho]; · iexact Ho
        isplitl [H0]; · iexact H0
        isplitl [H1]; · iexact H1
        isplitl [H2]; · iexact H2
        unfold owns; iexists _; isplitr
        swap; · iexact H3
        ipureintro; exact oval0_E ..
      · rw [show (dats m 0 c).leavesExact 3 t = owns (c : Thread nD τ) (ms0_3 t) fullShare ((dats m 0 c).after 3 t) from by
          unfold Dat.leavesExact; rw [liveAt0_3 t ((hcond0_3 t).mpr h3)], after0_3]
        rw [accAt_point m c t, if_neg h1]
        unfold startAt; rw [if_neg h0]
        rw [PhiS_castSucc m c t, PhiS_pos m c _ _ hz0]
        iintro ⟨⟨HS0, Hg⟩, Ho, ⟨%d0, H0⟩, ⟨%d1, H1⟩, ⟨%d2, H2⟩, ⟨%d3, H3⟩⟩
        iapply ((kernelRun0_G c (grid0.coords t) _ _ _ _ _ _ _ _ _ _ (fun h => h0 ((hcond0_0 t).mp h)) (fun h => h1 ((hcond0_1 t).mp h)) ((hcond0_2 t).mpr h1) ((hcond0_3 t).mpr h3) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact sval0_G ..
          iexact Hg
        isplitl [Ho]; · iexact Ho
        isplitl [H0]; · iexact H0
        isplitl [H1]; · iexact H1
        isplitl [H2]; · iexact H2
        unfold owns; iexists _; isplitr
        swap; · iexact H3
        ipureintro; exact oval0_G ..
    · by_cases h1 : t.val / 8 = t.val % 8
      · rw [Dat.leavesExact_idle (dats m 0 c) 3 t (idleAt0_3 t (fun h => h3 ((hcond0_3 t).mp h))) (noFlush0_3 t (fun h => h3 ((hcond0_3 t).mp h)))]
        rw [accAt_point m c t, if_pos h1]
        unfold startAt; rw [if_neg h0]
        rw [PhiS_castSucc m c t, PhiS_pos m c _ _ hz0]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (fun h => ((hcond0_2 t).mp h) h1) (fun h => h3 ((hcond0_3 t).mp h)) (iblk m c 0 t) (iblk m c 1 t) (iblk m c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact sval0_C ..
          iexact Hg
        isplitl [Ho]; · iexact Ho
        isplitl [H0]; · iexact H0
        isplitl [H1]; · iexact H1
        isplitl [H2]; · iexact H2
        iexists _; iexact H3
      · rw [Dat.leavesExact_idle (dats m 0 c) 3 t (idleAt0_3 t (fun h => h3 ((hcond0_3 t).mp h))) (noFlush0_3 t (fun h => h3 ((hcond0_3 t).mp h)))]
        rw [accAt_point m c t, if_neg h1]
        unfold startAt; rw [if_neg h0]
        rw [PhiS_castSucc m c t, PhiS_pos m c _ _ hz0]
        iintro ⟨⟨HS0, Hg⟩, Ho, ⟨%d0, H0⟩, ⟨%d1, H1⟩, ⟨%d2, H2⟩, ⟨%d3, H3⟩⟩
        iapply ((kernelRun0_D c (grid0.coords t) _ _ _ _ _ _ _ _ _ _ (fun h => h0 ((hcond0_0 t).mp h)) (fun h => h1 ((hcond0_1 t).mp h)) ((hcond0_2 t).mpr h1) (fun h => h3 ((hcond0_3 t).mp h)) (iblk m c 0 t) (iblk m c 1 t) (iblk m c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact sval0_D ..
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the pipeline at what the
    library computes from the proof data and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.Acc.lean ====
/-
  What the kernel's row-sum accumulator holds after each grid point, as a recursion on the point.

  The grid is 8 × 8, point `n` standing for row tile `n / 8` and column tile `n % 8`. At a point the body
    · starts from the zero column if the column tile is the first (`n % 8 = 0`), else from what the point before left,
    · adds the row sums of the tile's inverse distances — through the masked payload on a diagonal tile
      (`n / 8 = n % 8`: the skeleton's `k0_pay3`), through the unmasked one elsewhere (`k0_pay4`).
  The three blocks the payloads read are the windows' blocks at the point (`Gen.iblk`).
-/
import proofs.«131069_j41446434406802_2_alg».proof.Proof.Gen.KernelIdeal.Frame
import proofs.«131069_j41446434406802_2_alg».proof.Proof.Gen.KernelIdeal.Skeleton

noncomputable section

namespace Cert.KernelIdeal.Body

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The accumulator after point `n`: the tile's payload over the zero column or over the point before. -/
def accAt (c : Dev nD) : (n : ℕ) → n < cfg0.N → Vec F S1024x1 .f32
  | 0, hn => k0_pay3 (iblk m c 0 ⟨0, hn⟩) (iblk m c 1 ⟨0, hn⟩) (iblk m c 2 ⟨0, hn⟩) (k0_pay1 (F := F))
  | n + 1, hn =>
    if (n + 1) / 8 = (n + 1) % 8 then
      k0_pay3 (iblk m c 0 ⟨n + 1, hn⟩) (iblk m c 1 ⟨n + 1, hn⟩) (iblk m c 2 ⟨n + 1, hn⟩)
        (if (n + 1) % 8 = 0 then k0_pay1 (F := F) else accAt c n (Nat.lt_of_succ_lt hn))
    else
      k0_pay4 (iblk m c 0 ⟨n + 1, hn⟩) (iblk m c 1 ⟨n + 1, hn⟩) (iblk m c 2 ⟨n + 1, hn⟩)
        (if (n + 1) % 8 = 0 then k0_pay1 (F := F) else accAt c n (Nat.lt_of_succ_lt hn))

/-- The recursion at the first point. -/
theorem accAt_zero (c : Dev nD) (hn : 0 < cfg0.N) :
    accAt m c 0 hn = k0_pay3 (iblk m c 0 ⟨0, hn⟩) (iblk m c 1 ⟨0, hn⟩) (iblk m c 2 ⟨0, hn⟩) (k0_pay1 (F := F)) := rfl

/-- The recursion at a later point. -/
theorem accAt_succ (c : Dev nD) (n : ℕ) (hn : n + 1 < cfg0.N) :
    accAt m c (n + 1) hn =
      if (n + 1) / 8 = (n + 1) % 8 then
        k0_pay3 (iblk m c 0 ⟨n + 1, hn⟩) (iblk m c 1 ⟨n + 1, hn⟩) (iblk m c 2 ⟨n + 1, hn⟩)
          (if (n + 1) % 8 = 0 then k0_pay1 (F := F) else accAt m c n (Nat.lt_of_succ_lt hn))
      else
        k0_pay4 (iblk m c 0 ⟨n + 1, hn⟩) (iblk m c 1 ⟨n + 1, hn⟩) (iblk m c 2 ⟨n + 1, hn⟩)
          (if (n + 1) % 8 = 0 then k0_pay1 (F := F) else accAt m c n (Nat.lt_of_succ_lt hn)) := rfl

end Cert.KernelIdeal.Body

end
-- ==== Proof.BodyShared.lean ====
/-
  What the control cases of the kernel body share.

  The body branches four times on the grid point (row tile `i`, column tile `j`; point `t = 8 i + j`):
    · `j = 0`: the accumulator is reset to the zero column;
    · `i = j`: a diagonal tile, whose own diagonal entries are masked before the row sums are added;
    · `i ≠ j`: an off-diagonal tile, added unmasked;
    · `j = 7`: the accumulator is copied into the output block, which the pipeline then writes back.
  Each condition is decided here over the 64 points in closed form (`t % 8`, `t / 8`), as is where the output window is
  idle (everywhere but `j = 7`, where alone it is written back). The staging memrefs at a point, the scratch operand,
  and the region invariant restated with the scratch as a memref follow.
-/
import proofs.«131069_j41446434406802_2_alg».proof.Proof.Gen.KernelIdeal.Frame
import proofs.«131069_j41446434406802_2_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, decided over the grid -/

/-- The column tile is the first: the reset. -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The tile is diagonal. -/
abbrev cond0_1 (i : grid0.Coords) : Prop :=
  (Scalar.cmpi .ne (Scalar.extui (Scalar.cmpi .eq (BitVec.ofNat 32 (i 0).val) (BitVec.ofNat 32 (i 1).val))) 0#32) = 1#1
theorem hcond0_1 : ∀ t : Fin cfg0.N, cond0_1 (grid0.coords t) ↔ t.val / 8 = t.val % 8 :=
  (by decide +kernel : ∀ t : Fin grid0.N, cond0_1 (grid0.coords t) ↔ t.val / 8 = t.val % 8)

/-- The tile is off the diagonal. -/
abbrev cond0_2 (i : grid0.Coords) : Prop :=
  (Scalar.cmpi .ne (Scalar.extui (Scalar.cmpi .ne (BitVec.ofNat 32 (i 0).val) (BitVec.ofNat 32 (i 1).val))) 0#32) = 1#1
theorem hcond0_2 : ∀ t : Fin cfg0.N, cond0_2 (grid0.coords t) ↔ ¬ t.val / 8 = t.val % 8 :=
  (by decide +kernel : ∀ t : Fin grid0.N, cond0_2 (grid0.coords t) ↔ ¬ t.val / 8 = t.val % 8)

/-- The column tile is the last: the accumulator goes to the output block. -/
abbrev cond0_3 (i : grid0.Coords) : Prop := k0_cond4 i = 1#1
theorem hcond0_3 : ∀ t : Fin cfg0.N, cond0_3 (grid0.coords t) ↔ t.val % 8 = 7 :=
  (by decide +kernel : ∀ t : Fin grid0.N, cond0_3 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last column tile the body stores nothing into the output block, -/
theorem idleAt0_3 : ∀ t : Fin cfg0.N, ¬cond0_3 (grid0.coords t) → cfg0.idle 3 (grid0.coords t) = true := by decide +kernel
/-- and the pipeline does not write it back there. -/
theorem noFlush0_3 : ∀ t : Fin cfg0.N, ¬cond0_3 (grid0.coords t) → (cfg0.win 3).flush t = false := by decide +kernel
/-- At the last column tile the body stores into it. -/
theorem liveAt0_3 : ∀ t : Fin cfg0.N, cond0_3 (grid0.coords t) → cfg0.idle 3 (grid0.coords t) = false := by decide +kernel

/-! ## The memrefs the body is called with -/

abbrev ms0_0 (t : Fin cfg0.N) : Memref sig .tc .vmem S1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1 .f32 := Memref.whole cc0_scratch0

theorem hz : (![0, 0] : Fin 2 → Nat) = fun _ => 0 := funext fun a => by fin_cases a <;> rfl

/-- The region invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.BodyRuns.lean ====
/-
  The kernel body run once in each of its six control cases. A case fixes which of the four branches are taken:
  reset or carry the accumulator; a diagonal or an off-diagonal tile; copy the accumulator to the output block or not.
  In each the body is run symbolically on whole memrefs, and what it leaves in every buffer it stores into is a list
  of whole-buffer stores, newest first, which the run finds.
-/
import proofs.«131069_j41446434406802_2_alg».proof.Proof.BodyShared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in this case — the first point: reset, then a diagonal tile — on whole memrefs: the three input blocks at their contents, the output block
    handed back untouched, the accumulator at anything; it runs to the continuation with the inputs
    as they were and each buffer it stored into with its stores written, newest first (the lists the run finds). -/
noncomputable def kernelRun0_A (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i) (hc3 : ¬cond0_3 i)
    (x0 : Vec F S1024x3 .f32) (x1 : Vec F S3x1024 .f32) (x2 : Vec F S1x1024 .f32) :
    { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__potential_kernel i arg2 harg2 arg3 harg3 arg4 harg4 arg5 harg5 arg6 harg6) K } := by
  refine ⟨?_, fun xi3 E K => ?run⟩
  case run =>
    simp only [cc0__potential_kernel_eq_skeleton]; unfold cc0__potential_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The body in this case — a later row tile's first column tile: reset, then an off-diagonal tile — on whole memrefs: the three input blocks at their contents, the output block
    handed back untouched, the accumulator at anything; it runs to the continuation with the inputs
    as they were and each buffer it stored into with its stores written, newest first (the lists the run finds). -/
noncomputable def kernelRun0_B (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : cond0_2 i) (hc3 : ¬cond0_3 i)
    (x0 : Vec F S1024x3 .f32) (x1 : Vec F S3x1024 .f32) (x2 : Vec F S1x1024 .f32) :
    { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__potential_kernel i arg2 harg2 arg3 harg3 arg4 harg4 arg5 harg5 arg6 harg6) K } := by
  refine ⟨?_, fun xi3 E K => ?run⟩
  case run =>
    simp only [cc0__potential_kernel_eq_skeleton]; unfold cc0__potential_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The body in this case — a diagonal tile in a middle column — on whole memrefs: the three input blocks at their contents, the output block
    handed back untouched, the accumulator at what the point before left; it runs to the continuation with the inputs
    as they were and each buffer it stored into with its stores written, newest first (the lists the run finds). -/
noncomputable def kernelRun0_C (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : ¬cond0_3 i)
    (x0 : Vec F S1024x3 .f32) (x1 : Vec F S3x1024 .f32) (x2 : Vec F S1x1024 .f32) (xs0 : Vec F S1024x1 .f32) :
    { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__potential_kernel i arg2 harg2 arg3 harg3 arg4 harg4 arg5 harg5 arg6 harg6) K } := by
  refine ⟨?_, fun xi3 E K => ?run⟩
  case run =>
    simp only [cc0__potential_kernel_eq_skeleton]; unfold cc0__potential_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The body in this case — an off-diagonal tile in a middle column — on whole memrefs: the three input blocks at their contents, the output block
    handed back untouched, the accumulator at what the point before left; it runs to the continuation with the inputs
    as they were and each buffer it stored into with its stores written, newest first (the lists the run finds). -/
noncomputable def kernelRun0_D (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : ¬cond0_3 i)
    (x0 : Vec F S1024x3 .f32) (x1 : Vec F S3x1024 .f32) (x2 : Vec F S1x1024 .f32) (xs0 : Vec F S1024x1 .f32) :
    { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__potential_kernel i arg2 harg2 arg3 harg3 arg4 harg4 arg5 harg5 arg6 harg6) K } := by
  refine ⟨?_, fun xi3 E K => ?run⟩
  case run =>
    simp only [cc0__potential_kernel_eq_skeleton]; unfold cc0__potential_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The body in this case — the last point: a diagonal tile in the last column, then the copy to the output block — on whole memrefs: the three input blocks at their contents, the output block
    at anything, the accumulator at what the point before left; it runs to the continuation with the inputs
    as they were and each buffer it stored into with its stores written, newest first (the lists the run finds). -/
noncomputable def kernelRun0_E (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i)
    (x0 : Vec F S1024x3 .f32) (x1 : Vec F S3x1024 .f32) (x2 : Vec F S1x1024 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__potential_kernel i arg2 harg2 arg3 harg3 arg4 harg4 arg5 harg5 arg6 harg6) K } := by
  refine ⟨?_, ?_, fun E K => ?run⟩
  case run =>
    simp only [cc0__potential_kernel_eq_skeleton]; unfold cc0__potential_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

set_option maxHeartbeats 4000000 in
/-- The body in this case — an off-diagonal tile in the last column, then the copy to the output block — on whole memrefs: the three input blocks at their contents, the output block
    at anything, the accumulator at what the point before left; it runs to the continuation with the inputs
    as they were and each buffer it stored into with its stores written, newest first (the lists the run finds). -/
noncomputable def kernelRun0_G (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i)
    (x0 : Vec F S1024x3 .f32) (x1 : Vec F S3x1024 .f32) (x2 : Vec F S1x1024 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__potential_kernel i arg2 harg2 arg3 harg3 arg4 harg4 arg5 harg5 arg6 harg6) K } := by
  refine ⟨?_, ?_, fun E K => ?run⟩
  case run =>
    simp only [cc0__potential_kernel_eq_skeleton]; unfold cc0__potential_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Body

end
-- ==== Proof.BodyValues.lean ====
/-
  What each control case of the kernel body leaves in the buffers it stores into, as values. Every store of the body
  writes a whole [1024,1] column, so a buffer reads back its newest store: the accumulator ends at the tile's payload —
  the masked row sums on a diagonal tile, the unmasked ones elsewhere — added to the zero column (after a reset) or to
  what the point before left; the output block, where it is stored, ends at that same column.
-/
import proofs.«131069_j41446434406802_2_alg».proof.Proof.BodyRuns
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In case A the accumulator's stores cover it (each is a store of the whole column). -/
theorem scover0_A (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i) (hc3 : ¬cond0_3 i) (x0 : Vec F S1024x3 .f32) (x1 : Vec F S3x1024 .f32) (x2 : Vec F S1x1024 .f32) (y : S1024x1.Idx) :
    ∃ pc ∈ (kernelRun0_A c i arg2 harg2 arg3 harg3 arg4 harg4 arg5 harg5 arg6 harg6 hc0 hc1 hc2 hc3 x0 x1 x2).1, y ∈ pc.1.set :=
  View.cover_of_tiledL (kernelRun0_A c i arg2 harg2 arg3 harg3 arg4 harg4 arg5 harg5 arg6 harg6 hc0 hc1 hc2 hc3 x0 x1 x2).1 S1024x1.size (by sl_kernel_rfl) y

/-- What case A leaves in the accumulator, read through any view over any former contents: the tile's payload over
    the zero column. -/
theorem sval0_A (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i) (hc3 : ¬cond0_3 i) (x0 : Vec F S1024x3 .f32) (x1 : Vec F S3x1024 .f32) (x2 : Vec F S1x1024 .f32) (v : View sig .tc .vmem S1024x1 .f32) (f : v.ty.Contents (Elt F)) :
    v.read (Elt F) (v.writes (Elt F) f (kernelRun0_A c i arg2 harg2 arg3 harg3 arg4 harg4 arg5 harg5 arg6 harg6 hc0 hc1 hc2 hc3 x0 x1 x2).1) = k0_pay3 x0 x1 x2 (k0_pay1 (F := F)) := by
  rw [View.read_writes_eq_canon _ _ _ (scover0_A c i arg2 harg2 arg3 harg3 arg4 harg4 arg5 harg5 arg6 harg6 hc0 hc1 hc2 hc3 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

/-- In case B the accumulator's stores cover it (each is a store of the whole column). -/
theorem scover0_B (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : cond0_2 i) (hc3 : ¬cond0_3 i) (x0 : Vec F S1024x3 .f32) (x1 : Vec F S3x1024 .f32) (x2 : Vec F S1x1024 .f32) (y : S1024x1.Idx) :
    ∃ pc ∈ (kernelRun0_B c i arg2 harg2 arg3 harg3 arg4 harg4 arg5 harg5 arg6 harg6 hc0 hc1 hc2 hc3 x0 x1 x2).1, y ∈ pc.1.set :=
  View.cover_of_tiledL (kernelRun0_B c i arg2 harg2 arg3 harg3 arg4 harg4 arg5 harg5 arg6 harg6 hc0 hc1 hc2 hc3 x0 x1 x2).1 S1024x1.size (by sl_kernel_rfl) y

/-- What case B leaves in the accumulator, read through any view over any former contents: the tile's payload over
    the zero column. -/
theorem sval0_B (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : cond0_2 i) (hc3 : ¬cond0_3 i) (x0 : Vec F S1024x3 .f32) (x1 : Vec F S3x1024 .f32) (x2 : Vec F S1x1024 .f32) (v : View sig .tc .vmem S1024x1 .f32) (f : v.ty.Contents (Elt F)) :
    v.read (Elt F) (v.writes (Elt F) f (kernelRun0_B c i arg2 harg2 arg3 harg3 arg4 harg4 arg5 harg5 arg6 harg6 hc0 hc1 hc2 hc3 x0 x1 x2).1) = k0_pay4 x0 x1 x2 (k0_pay1 (F := F)) := by
  rw [View.read_writes_eq_canon _ _ _ (scover0_B c i arg2 harg2 arg3 harg3 arg4 harg4 arg5 harg5 arg6 harg6 hc0 hc1 hc2 hc3 x0 x1 x2)]
  unfold kernelRun0_B
  dsimp only
  sl_unfold_words
  rw [View.canon_cons_unit_zero (S := S1024x1) hz, View.readCov_unit_zero (S := S1024x1) _ hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

/-- In case C the accumulator's stores cover it (each is a store of the whole column). -/
theorem scover0_C (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : ¬cond0_3 i) (x0 : Vec F S1024x3 .f32) (x1 : Vec F S3x1024 .f32) (x2 : Vec F S1x1024 .f32) (xs0 : Vec F S1024x1 .f32) (y : S1024x1.Idx) :
    ∃ pc ∈ (kernelRun0_C c i arg2 harg2 arg3 harg3 arg4 harg4 arg5 harg5 arg6 harg6 hc0 hc1 hc2 hc3 x0 x1 x2 xs0).1, y ∈ pc.1.set :=
  View.cover_of_tiledL (kernelRun0_C c i arg2 harg2 arg3 harg3 arg4 harg4 arg5 harg5 arg6 harg6 hc0 hc1 hc2 hc3 x0 x1 x2 xs0).1 S1024x1.size (by sl_kernel_rfl) y

/-- What case C leaves in the accumulator, read through any view over any former contents: the tile's payload over
    what the point before left. -/
theorem sval0_C (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : ¬cond0_3 i) (x0 : Vec F S1024x3 .f32) (x1 : Vec F S3x1024 .f32) (x2 : Vec F S1x1024 .f32) (xs0 : Vec F S1024x1 .f32) (v : View sig .tc .vmem S1024x1 .f32) (f : v.ty.Contents (Elt F)) :
    v.read (Elt F) (v.writes (Elt F) f (kernelRun0_C c i arg2 harg2 arg3 harg3 arg4 harg4 arg5 harg5 arg6 harg6 hc0 hc1 hc2 hc3 x0 x1 x2 xs0).1) = k0_pay3 x0 x1 x2 xs0 := by
  rw [View.read_writes_eq_canon _ _ _ (scover0_C c i arg2 harg2 arg3 harg3 arg4 harg4 arg5 harg5 arg6 harg6 hc0 hc1 hc2 hc3 x0 x1 x2 xs0)]
  unfold kernelRun0_C
  dsimp only
  sl_unfold_words
  rw [View.canon_unit_zero (S := S1024x1) hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

/-- In case D the accumulator's stores cover it (each is a store of the whole column). -/
theorem scover0_D (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : ¬cond0_3 i) (x0 : Vec F S1024x3 .f32) (x1 : Vec F S3x1024 .f32) (x2 : Vec F S1x1024 .f32) (xs0 : Vec F S1024x1 .f32) (y : S1024x1.Idx) :
    ∃ pc ∈ (kernelRun0_D c i arg2 harg2 arg3 harg3 arg4 harg4 arg5 harg5 arg6 harg6 hc0 hc1 hc2 hc3 x0 x1 x2 xs0).1, y ∈ pc.1.set :=
  View.cover_of_tiledL (kernelRun0_D c i arg2 harg2 arg3 harg3 arg4 harg4 arg5 harg5 arg6 harg6 hc0 hc1 hc2 hc3 x0 x1 x2 xs0).1 S1024x1.size (by sl_kernel_rfl) y

/-- What case D leaves in the accumulator, read through any view over any former contents: the tile's payload over
    what the point before left. -/
theorem sval0_D (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : ¬cond0_3 i) (x0 : Vec F S1024x3 .f32) (x1 : Vec F S3x1024 .f32) (x2 : Vec F S1x1024 .f32) (xs0 : Vec F S1024x1 .f32) (v : View sig .tc .vmem S1024x1 .f32) (f : v.ty.Contents (Elt F)) :
    v.read (Elt F) (v.writes (Elt F) f (kernelRun0_D c i arg2 harg2 arg3 harg3 arg4 harg4 arg5 harg5 arg6 harg6 hc0 hc1 hc2 hc3 x0 x1 x2 xs0).1) = k0_pay4 x0 x1 x2 xs0 := by
  rw [View.read_writes_eq_canon _ _ _ (scover0_D c i arg2 harg2 arg3 harg3 arg4 harg4 arg5 harg5 arg6 harg6 hc0 hc1 hc2 hc3 x0 x1 x2 xs0)]
  unfold kernelRun0_D
  dsimp only
  sl_unfold_words
  rw [View.canon_unit_zero (S := S1024x1) hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

/-- In case E the accumulator's stores cover it (each is a store of the whole column). -/
theorem scover0_E (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i) (x0 : Vec F S1024x3 .f32) (x1 : Vec F S3x1024 .f32) (x2 : Vec F S1x1024 .f32) (xs0 : Vec F S1024x1 .f32) (y : S1024x1.Idx) :
    ∃ pc ∈ (kernelRun0_E c i arg2 harg2 arg3 harg3 arg4 harg4 arg5 harg5 arg6 harg6 hc0 hc1 hc2 hc3 x0 x1 x2 xs0).2.1, y ∈ pc.1.set :=
  View.cover_of_tiledL (kernelRun0_E c i arg2 harg2 arg3 harg3 arg4 harg4 arg5 harg5 arg6 harg6 hc0 hc1 hc2 hc3 x0 x1 x2 xs0).2.1 S1024x1.size (by sl_kernel_rfl) y

/-- What case E leaves in the accumulator, read through any view over any former contents: the tile's payload over
    what the point before left. -/
theorem sval0_E (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i) (x0 : Vec F S1024x3 .f32) (x1 : Vec F S3x1024 .f32) (x2 : Vec F S1x1024 .f32) (xs0 : Vec F S1024x1 .f32) (v : View sig .tc .vmem S1024x1 .f32) (f : v.ty.Contents (Elt F)) :
    v.read (Elt F) (v.writes (Elt F) f (kernelRun0_E c i arg2 harg2 arg3 harg3 arg4 harg4 arg5 harg5 arg6 harg6 hc0 hc1 hc2 hc3 x0 x1 x2 xs0).2.1) = k0_pay3 x0 x1 x2 xs0 := by
  rw [View.read_writes_eq_canon _ _ _ (scover0_E c i arg2 harg2 arg3 harg3 arg4 harg4 arg5 harg5 arg6 harg6 hc0 hc1 hc2 hc3 x0 x1 x2 xs0)]
  unfold kernelRun0_E
  dsimp only
  sl_unfold_words
  rw [View.canon_unit_zero (S := S1024x1) hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

/-- In case E the output block's one store covers it. -/
theorem cover0_E (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i) (x0 : Vec F S1024x3 .f32) (x1 : Vec F S3x1024 .f32) (x2 : Vec F S1x1024 .f32) (xs0 : Vec F S1024x1 .f32) (y : S1024x1.Idx) :
    ∃ pc ∈ (kernelRun0_E c i arg2 harg2 arg3 harg3 arg4 harg4 arg5 harg5 arg6 harg6 hc0 hc1 hc2 hc3 x0 x1 x2 xs0).1, y ∈ pc.1.set :=
  View.cover_of_tiledL (kernelRun0_E c i arg2 harg2 arg3 harg3 arg4 harg4 arg5 harg5 arg6 harg6 hc0 hc1 hc2 hc3 x0 x1 x2 xs0).1 S1024x1.size (by sl_kernel_rfl) y

/-- What case E leaves in the output block: the accumulator it has just updated. -/
theorem oval0_E (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i) (x0 : Vec F S1024x3 .f32) (x1 : Vec F S3x1024 .f32) (x2 : Vec F S1x1024 .f32) (xs0 : Vec F S1024x1 .f32) (v : View sig .tc .vmem S1024x1 .f32) (f : v.ty.Contents (Elt F)) :
    v.read (Elt F) (v.writes (Elt F) f (kernelRun0_E c i arg2 harg2 arg3 harg3 arg4 harg4 arg5 harg5 arg6 harg6 hc0 hc1 hc2 hc3 x0 x1 x2 xs0).1) = k0_pay3 x0 x1 x2 xs0 := by
  rw [View.read_writes_eq_canon _ _ _ (cover0_E c i arg2 harg2 arg3 harg3 arg4 harg4 arg5 harg5 arg6 harg6 hc0 hc1 hc2 hc3 x0 x1 x2 xs0)]
  unfold kernelRun0_E
  dsimp only
  sl_unfold_words
  rw [View.canon_unit_zero (S := S1024x1) hz, View.readCov_unit_zero (S := S1024x1) _ hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

/-- In case G the accumulator's stores cover it (each is a store of the whole column). -/
theorem scover0_G (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i) (x0 : Vec F S1024x3 .f32) (x1 : Vec F S3x1024 .f32) (x2 : Vec F S1x1024 .f32) (xs0 : Vec F S1024x1 .f32) (y : S1024x1.Idx) :
    ∃ pc ∈ (kernelRun0_G c i arg2 harg2 arg3 harg3 arg4 harg4 arg5 harg5 arg6 harg6 hc0 hc1 hc2 hc3 x0 x1 x2 xs0).2.1, y ∈ pc.1.set :=
  View.cover_of_tiledL (kernelRun0_G c i arg2 harg2 arg3 harg3 arg4 harg4 arg5 harg5 arg6 harg6 hc0 hc1 hc2 hc3 x0 x1 x2 xs0).2.1 S1024x1.size (by sl_kernel_rfl) y

/-- What case G leaves in the accumulator, read through any view over any former contents: the tile's payload over
    what the point before left. -/
theorem sval0_G (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i) (x0 : Vec F S1024x3 .f32) (x1 : Vec F S3x1024 .f32) (x2 : Vec F S1x1024 .f32) (xs0 : Vec F S1024x1 .f32) (v : View sig .tc .vmem S1024x1 .f32) (f : v.ty.Contents (Elt F)) :
    v.read (Elt F) (v.writes (Elt F) f (kernelRun0_G c i arg2 harg2 arg3 harg3 arg4 harg4 arg5 harg5 arg6 harg6 hc0 hc1 hc2 hc3 x0 x1 x2 xs0).2.1) = k0_pay4 x0 x1 x2 xs0 := by
  rw [View.read_writes_eq_canon _ _ _ (scover0_G c i arg2 harg2 arg3 harg3 arg4 harg4 arg5 harg5 arg6 harg6 hc0 hc1 hc2 hc3 x0 x1 x2 xs0)]
  unfold kernelRun0_G
  dsimp only
  sl_unfold_words
  rw [View.canon_unit_zero (S := S1024x1) hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

/-- In case G the output block's one store covers it. -/
theorem cover0_G (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i) (x0 : Vec F S1024x3 .f32) (x1 : Vec F S3x1024 .f32) (x2 : Vec F S1x1024 .f32) (xs0 : Vec F S1024x1 .f32) (y : S1024x1.Idx) :
    ∃ pc ∈ (kernelRun0_G c i arg2 harg2 arg3 harg3 arg4 harg4 arg5 harg5 arg6 harg6 hc0 hc1 hc2 hc3 x0 x1 x2 xs0).1, y ∈ pc.1.set :=
  View.cover_of_tiledL (kernelRun0_G c i arg2 harg2 arg3 harg3 arg4 harg4 arg5 harg5 arg6 harg6 hc0 hc1 hc2 hc3 x0 x1 x2 xs0).1 S1024x1.size (by sl_kernel_rfl) y

/-- What case G leaves in the output block: the accumulator it has just updated. -/
theorem oval0_G (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i) (x0 : Vec F S1024x3 .f32) (x1 : Vec F S3x1024 .f32) (x2 : Vec F S1x1024 .f32) (xs0 : Vec F S1024x1 .f32) (v : View sig .tc .vmem S1024x1 .f32) (f : v.ty.Contents (Elt F)) :
    v.read (Elt F) (v.writes (Elt F) f (kernelRun0_G c i arg2 harg2 arg3 harg3 arg4 harg4 arg5 harg5 arg6 harg6 hc0 hc1 hc2 hc3 x0 x1 x2 xs0).1) = k0_pay4 x0 x1 x2 xs0 := by
  rw [View.read_writes_eq_canon _ _ _ (cover0_G c i arg2 harg2 arg3 harg3 arg4 harg4 arg5 harg5 arg6 harg6 hc0 hc1 hc2 hc3 x0 x1 x2 xs0)]
  unfold kernelRun0_G
  dsimp only
  sl_unfold_words
  rw [View.canon_unit_zero (S := S1024x1) hz, View.readCov_unit_zero (S := S1024x1) _ hz]
  simp only [View.readAt_eq_ld, harg2.read_unread, harg3.read_unread, harg4.read_unread, harg6.read_unread,
    View.ld_unit_zero (S := S1024x3) hz, View.ld_unit_zero (S := S3x1024) hz, View.ld_unit_zero (S := S1x1024) hz,
    View.ld_unit_zero (S := S1024x1) hz]

end Cert.KernelIdeal.Body

end
-- ==== Proof.BodyFrame.lean ====
/-
  The frame of the kernel region, for any float instance: the proof data of the pipeline, the body obligation, and the
  run of @main around the region.

  The accumulator is carried between grid points, so the region invariant names its contents: before the first point
  anything; after point `n` the recursion `accAt` (Acc.lean). After the body each input's staging buffer holds its
  block, and the output's holds the accumulator — it is stored, and written back, only in the last column tile; at every
  other point the output window is idle and its buffer is handed back untouched. At a point the closed forms of the four
  branch conditions choose one of the six control cases, whose run (BodyRuns.lean) and values (BodyValues.lean) apply.
-/
import proofs.«131069_j41446434406802_2_alg».proof.Proof.Acc
import proofs.«131069_j41446434406802_2_alg».proof.Proof.BodyValues

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator at a point -/

/-- What a point starts from: the zero column in the first column tile, else what the point before left. -/
def startAt (c : Dev nD) (t : Fin cfg0.N) : Vec F S1024x1 .f32 :=
  if t.val % 8 = 0 then k0_pay1 (F := F) else accAt m c (t.val - 1) (Nat.lt_of_le_of_lt (Nat.sub_le _ _) t.isLt)

/-- The recursion at a point of the grid: the tile's payload over what the point starts from. -/
theorem accAt_point' (c : Dev nD) : ∀ (n : ℕ) (hn : n < cfg0.N),
    accAt m c n hn =
      if n / 8 = n % 8 then k0_pay3 (iblk m c 0 ⟨n, hn⟩) (iblk m c 1 ⟨n, hn⟩) (iblk m c 2 ⟨n, hn⟩) (startAt m c ⟨n, hn⟩)
      else k0_pay4 (iblk m c 0 ⟨n, hn⟩) (iblk m c 1 ⟨n, hn⟩) (iblk m c 2 ⟨n, hn⟩) (startAt m c ⟨n, hn⟩)
  | 0, hn => by rw [accAt_zero]; simp [startAt]
  | n + 1, hn => accAt_succ m c n hn

theorem accAt_point (c : Dev nD) (t : Fin cfg0.N) :
    accAt m c t.val t.isLt =
      if t.val / 8 = t.val % 8 then k0_pay3 (iblk m c 0 t) (iblk m c 1 t) (iblk m c 2 t) (startAt m c t)
      else k0_pay4 (iblk m c 0 t) (iblk m c 1 t) (iblk m c 2 t) (startAt m c t) :=
  accAt_point' m c t.val t.isLt

/-! ## The region invariant -/

/-- Before point `n`: at the first point the class's invariant (the accumulator at anything); afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The proof data -/

/-- The arrays as the region finds them; after the body each input at its block, the output at the accumulator;
    the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the inputs' memrefs hold their blocks; the closed forms say which case the point is in; the
    invariant hands the body the accumulator (at anything at the first point, else at what the point before left) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 8 = 0
  · have h3 : ¬t.val % 8 = 7 := by omega
    by_cases h1 : t.val / 8 = t.val % 8
    · have hz0 : t.val = 0 := by omega
      rw [Dat.leavesExact_idle (dats m 0 c) 3 t (idleAt0_3 t (fun h => h3 ((hcond0_3 t).mp h))) (noFlush0_3 t (fun h => h3 ((hcond0_3 t).mp h)))]
      rw [accAt_point m c t, if_pos h1]
      unfold startAt; rw [if_pos h0]
      rw [PhiS_castSucc m c t, PhiS_zero m c _ _ hz0, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) ((hcond0_1 t).mpr h1) (fun h => ((hcond0_2 t).mp h) h1) (fun h => h3 ((hcond0_3 t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact sval0_A ..
        iexact Hg
      isplitl [Ho]; · iexact Ho
      isplitl [H0]; · iexact H0
      isplitl [H1]; · iexact H1
      isplitl [H2]; · iexact H2
      iexists _; iexact H3
    · have hz0 : t.val ≠ 0 := by omega
      rw [Dat.leavesExact_idle (dats m 0 c) 3 t (idleAt0_3 t (fun h => h3 ((hcond0_3 t).mp h))) (noFlush0_3 t (fun h => h3 ((hcond0_3 t).mp h)))]
      rw [accAt_point m c t, if_neg h1]
      unfold startAt; rw [if_pos h0]
      rw [PhiS_castSucc m c t, PhiS_pos m c _ _ hz0]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ ((hcond0_0 t).mpr h0) (fun h => h1 ((hcond0_1 t).mp h)) ((hcond0_2 t).mpr h1) (fun h => h3 ((hcond0_3 t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact sval0_B ..
        iexact Hg
      isplitl [Ho]; · iexact Ho
      isplitl [H0]; · iexact H0
      isplitl [H1]; · iexact H1
      isplitl [H2]; · iexact H2
      iexists _; iexact H3
  · have hz0 : t.val ≠ 0 := by omega
    by_cases h3 : t.val % 8 = 7
    · by_cases h1 : t.val / 8 = t.val % 8
      · rw [show (dats m 0 c).leavesExact 3 t = owns (c : Thread nD τ) (ms0_3 t) fullShare ((dats m 0 c).after 3 t) from by
          unfold Dat.leavesExact; rw [liveAt0_3 t ((hcond0_3 t).mpr h3)], after0_3]
        rw [accAt_point m c t, if_pos h1]
        unfold startAt; rw [if_neg h0]
        rw [PhiS_castSucc m c t, PhiS_pos m c _ _ hz0]
        iintro ⟨⟨HS0, Hg⟩, Ho, ⟨%d0, H0⟩, ⟨%d1, H1⟩, ⟨%d2, H2⟩, ⟨%d3, H3⟩⟩
        iapply ((kernelRun0_E c (grid0.coords t) _ _ _ _ _ _ _ _ _ _ (fun h => h0 ((hcond0_0 t).mp h)) ((hcond0_1 t).mpr h1) (fun h => ((hcond0_2 t).mp h) h1) ((hcond0_3 t).mpr h3) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact sval0_E ..
          iexact Hg
        isplitl [Ho]; · iexact Ho
        isplitl [H0]; · iexact H0
        isplitl [H1]; · iexact H1
        isplitl [H2]; · iexact H2
        unfold owns; iexists _; isplitr
        swap; · iexact H3
        ipureintro; exact oval0_E ..
      · rw [show (dats m 0 c).leavesExact 3 t = owns (c : Thread nD τ) (ms0_3 t) fullShare ((dats m 0 c).after 3 t) from by
          unfold Dat.leavesExact; rw [liveAt0_3 t ((hcond0_3 t).mpr h3)], after0_3]
        rw [accAt_point m c t, if_neg h1]
        unfold startAt; rw [if_neg h0]
        rw [PhiS_castSucc m c t, PhiS_pos m c _ _ hz0]
        iintro ⟨⟨HS0, Hg⟩, Ho, ⟨%d0, H0⟩, ⟨%d1, H1⟩, ⟨%d2, H2⟩, ⟨%d3, H3⟩⟩
        iapply ((kernelRun0_G c (grid0.coords t) _ _ _ _ _ _ _ _ _ _ (fun h => h0 ((hcond0_0 t).mp h)) (fun h => h1 ((hcond0_1 t).mp h)) ((hcond0_2 t).mpr h1) ((hcond0_3 t).mpr h3) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact sval0_G ..
          iexact Hg
        isplitl [Ho]; · iexact Ho
        isplitl [H0]; · iexact H0
        isplitl [H1]; · iexact H1
        isplitl [H2]; · iexact H2
        unfold owns; iexists _; isplitr
        swap; · iexact H3
        ipureintro; exact oval0_G ..
    · by_cases h1 : t.val / 8 = t.val % 8
      · rw [Dat.leavesExact_idle (dats m 0 c) 3 t (idleAt0_3 t (fun h => h3 ((hcond0_3 t).mp h))) (noFlush0_3 t (fun h => h3 ((hcond0_3 t).mp h)))]
        rw [accAt_point m c t, if_pos h1]
        unfold startAt; rw [if_neg h0]
        rw [PhiS_castSucc m c t, PhiS_pos m c _ _ hz0]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (fun h => ((hcond0_2 t).mp h) h1) (fun h => h3 ((hcond0_3 t).mp h)) (iblk m c 0 t) (iblk m c 1 t) (iblk m c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact sval0_C ..
          iexact Hg
        isplitl [Ho]; · iexact Ho
        isplitl [H0]; · iexact H0
        isplitl [H1]; · iexact H1
        isplitl [H2]; · iexact H2
        iexists _; iexact H3
      · rw [Dat.leavesExact_idle (dats m 0 c) 3 t (idleAt0_3 t (fun h => h3 ((hcond0_3 t).mp h))) (noFlush0_3 t (fun h => h3 ((hcond0_3 t).mp h)))]
        rw [accAt_point m c t, if_neg h1]
        unfold startAt; rw [if_neg h0]
        rw [PhiS_castSucc m c t, PhiS_pos m c _ _ hz0]
        iintro ⟨⟨HS0, Hg⟩, Ho, ⟨%d0, H0⟩, ⟨%d1, H1⟩, ⟨%d2, H2⟩, ⟨%d3, H3⟩⟩
        iapply ((kernelRun0_D c (grid0.coords t) _ _ _ _ _ _ _ _ _ _ (fun h => h0 ((hcond0_0 t).mp h)) (fun h => h1 ((hcond0_1 t).mp h)) ((hcond0_2 t).mpr h1) (fun h => h3 ((hcond0_3 t).mp h)) (iblk m c 0 t) (iblk m c 1 t) (iblk m c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact sval0_D ..
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the pipeline at what the
    library computes from the proof data and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  The energy of a particle system as ONE function of its arrays, over the extended reals.

  For positions `X` (8192 rows of 3 coordinates) and velocities `Q` (4096 rows of 3):
    n2 X i     = Σ_k X(i,k)²                         the squared norm of row i
    dot X i j  = Σ_k X(i,k)·X(j,k)                   the inner product of rows i and j
    r2 X i j   = (n2 X i + n2 X j) − 2·dot X i j     the squared distance, by the polarization identity
    rinv X i j = 0 if i = j, else 1/√(max (r2 X i j) ε)   the inverse distance, the diagonal left out
    total X    = Σ_i Σ_j rinv X i j                  the sum over ordered pairs
    kinetic Q  = ½ · Σ_i Σ_k Q(i,k)²
    energy X Q = kinetic Q − total X.
  The constants 2, ε and ½ are kept as the f32 words both programs print, so neither is ever evaluated.
-/
import Idealize.ShloMosaic.PureOps.Ideal
import Idealize.ShloMosaic.PureOps.Ideal.Laws
import Idealize.ShloMosaic.Lib.ValueIdx

noncomputable section

open scoped BigOperators

namespace Cert.Pairs

open Idealize.ShloMosaic Idealize.ShloMosaic.ValueIdx

/-- The positions' shape and the velocities' shape. -/
abbrev SPos : Shape := ⟨2, ![8192, 3]⟩
abbrev SVel : Shape := ⟨2, ![4096, 3]⟩

/-- The squared norm of row `i`. -/
def n2 (X : SPos.Idx → EReal) (i : Fin 8192) : EReal := ∑ k : Fin 3, X (ix2 i k) * X (ix2 i k)

/-- The inner product of rows `i` and `j`. -/
def dot (X : SPos.Idx → EReal) (i j : Fin 8192) : EReal := ∑ k : Fin 3, X (ix2 i k) * X (ix2 j k)

/-- The squared distance of rows `i` and `j`: |xᵢ|² + |xⱼ|² − 2 xᵢ·xⱼ. -/
def r2 (X : SPos.Idx → EReal) (i j : Fin 8192) : EReal :=
  (n2 X i + n2 X j) - Ideal.ofBits .f32 0x40000000#32 * dot X i j

/-- The inverse distance of rows `i ≠ j`, the squared distance kept above ε; zero on the diagonal. -/
def rinv (X : SPos.Idx → EReal) (i j : Fin 8192) : EReal :=
  if i = j then 0 else Ideal.rsqrt (max (r2 X i j) (Ideal.ofBits .f32 0x2B8CBCCC#32))

/-- The potential: the inverse distances summed over all ordered pairs. -/
def total (X : SPos.Idx → EReal) : EReal := ∑ i : Fin 8192, ∑ j : Fin 8192, rinv X i j

/-- The kinetic energy at unit mass: half the sum of the squared velocities. -/
def kinetic (Q : SVel.Idx → EReal) : EReal :=
  Ideal.ofBits .f32 0x3F000000#32 * ∑ i : Fin 4096, ∑ k : Fin 3, Q (ix2 i k) * Q (ix2 i k)

/-- The energy both programs compute. -/
def energy (X : SPos.Idx → EReal) (Q : SVel.Idx → EReal) : EReal := kinetic Q - total X

end Cert.Pairs

end
-- ==== Proof.AccValueBlocks.lean ====
/-
  The three blocks the body reads at a grid point, entry by entry, in terms of the positions.

  With `X` the positions as the region finds them (8192 rows of 3 coordinates), the grid point `t` standing for row
  tile `t / 8` and column tile `t % 8`:
    · the first block is rows `1024·(t/8) … 1024·(t/8)+1023` of `X`;
    · the second block is columns `1024·(t%8) …` of the transpose of `X`: its entry `(k, c)` is `X(1024·(t%8)+c, k)`;
    · the third block is the same columns of the row of squared norms: its entry `(0, c)` is `Σ_k X(1024·(t%8)+c, k)²`.
  A block's coordinate along an axis is always (block index) × (block size) + 1 × (coordinate inside the block); the block
  indices at a point are decided once over the 64 points. The transposed array and the row of squared norms are what
  the host operations before the region leave: the transpose of `X`, and the sums over the three coordinates of
  `X·X` from the initial value zero, laid out as one row.
-/
import proofs.«131069_j41446434406802_2_alg».proof.Proof.Gen.KernelIdeal.Frame
import proofs.«131069_j41446434406802_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

noncomputable section

namespace Cert.KernelIdeal.AccValue

open Idealize.ShloMosaic Idealize.ShloMosaic.TcCoe Idealize.SL.Sem Idealize.ShloMosaic.ValueIdx
open Idealize.ShloMosaic.StableHlo
open Cert.KernelIdeal Cert.KernelIdeal.Gen

variable (m : (ℓ : Loc nD τ sig) → Buf (Elt Ideal) ℓ)

/-! ## The block indices at a point -/

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = 0 ∧ win0_1.index t 1 = t.val % 8 :=
  (by decide +kernel : ∀ t : Fin grid0.N, win0_1.index t 0 = 0 ∧ win0_1.index t 1 = t.val % 8)
theorem idx2 : ∀ t : Fin cfg0.N, win0_2.index t 0 = 0 ∧ win0_2.index t 1 = t.val % 8 :=
  (by decide +kernel : ∀ t : Fin grid0.N, win0_2.index t 0 = 0 ∧ win0_2.index t 1 = t.val % 8)

/-- A row of tile `t / 8` is a row of the array. -/
theorem row_lt (t : Fin cfg0.N) (r : Fin 1024) : 1024 * (t.val / 8) + r.val < 8192 := by
  have := t.isLt; have : cfg0.N = 64 := N_0; have := r.isLt; omega
/-- A column of tile `t % 8` is a row of the array. -/
theorem col_lt (t : Fin cfg0.N) (c : Fin 1024) : 1024 * (t.val % 8) + c.val < 8192 := by
  have := c.isLt; omega

/-! ## The blocks as entries of the arrays the region finds -/

/-- The first block's entry `(r, k)` is the positions' entry `(1024·(t/8) + r, k)`. -/
theorem iblk0_apply (c : Dev nD) (t : Fin cfg0.N) (r : Fin 1024) (k : Fin 3) :
    (iblk m c 0 t : Vec Ideal S1024x3 .f32) (ix2 r k)
      = V m c main_v6 (ix2 (⟨1024 * (t.val / 8) + r.val, row_lt t r⟩ : Fin 8192) k) := by
  unfold iblk
  rw [View.read_apply]
  show V m c main_v6 _ = V m c main_v6 _
  refine congrArg (V m c main_v6) (funext fun a => Fin.ext ?_)
  match a with
  | ⟨0, _⟩ => show win0_0.index t 0 * 1024 + 1 * r.val = 1024 * (t.val / 8) + r.val; rw [(idx0 t).1]; omega
  | ⟨1, _⟩ => show win0_0.index t 1 * 3 + 1 * k.val = k.val; rw [(idx0 t).2]; omega

/-- The second block's entry `(k, c)` is the transposed array's entry `(k, 1024·(t%8) + c)`. -/
theorem iblk1_apply_v10 (c : Dev nD) (t : Fin cfg0.N) (k : Fin 3) (cc : Fin 1024) :
    (iblk m c 1 t : Vec Ideal S3x1024 .f32) (ix2 k cc)
      = V m c main_v10 (ix2 k (⟨1024 * (t.val % 8) + cc.val, col_lt t cc⟩ : Fin 8192)) := by
  unfold iblk
  rw [View.read_apply]
  show V m c main_v10 _ = V m c main_v10 _
  refine congrArg (V m c main_v10) (funext fun a => Fin.ext ?_)
  match a with
  | ⟨0, _⟩ => show win0_1.index t 0 * 3 + 1 * k.val = k.val; rw [(idx1 t).1]; omega
  | ⟨1, _⟩ => show win0_1.index t 1 * 1024 + 1 * cc.val = 1024 * (t.val % 8) + cc.val; rw [(idx1 t).2]; omega

/-- The third block's entry `(0, c)` is the row of squared norms' entry `(0, 1024·(t%8) + c)`. -/
theorem iblk2_apply_v13 (c : Dev nD) (t : Fin cfg0.N) (cc : Fin 1024) :
    (iblk m c 2 t : Vec Ideal S1x1024 .f32) (ix2 (0 : Fin 1) cc)
      = V m c main_v13 (ix2 (0 : Fin 1) (⟨1024 * (t.val % 8) + cc.val, col_lt t cc⟩ : Fin 8192)) := by
  unfold iblk
  rw [View.read_apply]
  show V m c main_v13 _ = V m c main_v13 _
  refine congrArg (V m c main_v13) (funext fun a => Fin.ext ?_)
  match a with
  | ⟨0, _⟩ => show win0_2.index t 0 * 1 + 1 * 0 = 0; rw [(idx2 t).1]
  | ⟨1, _⟩ => show win0_2.index t 1 * 1024 + 1 * cc.val = 1024 * (t.val % 8) + cc.val; rw [(idx2 t).2]; omega

end Cert.KernelIdeal.AccValue

end
-- ==== Proof.AccValueHost.lean ====
/-
  What the host operations before the region leave in the transposed array, in terms of the positions.

  With `X` the positions as the region finds them, the second operand of the region is the transpose of `X`: its entry
  `(k, j)` is `X(j, k)`.
-/
import proofs.«131069_j41446434406802_2_alg».proof.Proof.Gen.KernelIdeal.Frame
import proofs.«131069_j41446434406802_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

noncomputable section

namespace Cert.KernelIdeal.AccValue

open Idealize.ShloMosaic Idealize.ShloMosaic.TcCoe Idealize.SL.Sem Idealize.ShloMosaic.ValueIdx
open Idealize.ShloMosaic.StableHlo
open Cert.KernelIdeal Cert.KernelIdeal.Gen
open scoped BigOperators

variable (m : (ℓ : Loc nD τ sig) → Buf (Elt Ideal) ℓ)

/-- The second operand is the transpose of the positions. -/
theorem V_v10 (c : Dev nD) :
    (V m c main_v10 : S3x8192.Idx → EReal)
      = transpose S3x8192 [1, 0] (V m c main_v6 : S8192x3.Idx → EReal) transposes_S8192x3_S3x8192_1_0 := by
  show StableHlo.after hostOps0 (fun b => m (c, b)) (Proc.devRef .tc main_v10)
    = transpose S3x8192 [1, 0] (StableHlo.after hostOps0 (fun b => m (c, b)) (Proc.devRef .tc main_v6))
        transposes_S8192x3_S3x8192_1_0
  after_results_simp <;> rfl

/-- Its entry `(k, j)` is the positions' entry `(j, k)`. -/
theorem V_v10_apply (c : Dev nD) (k : Fin 3) (j : Fin 8192) :
    V m c main_v10 (ix2 k j) = V m c main_v6 (ix2 j k) := by
  refine (congrFun (V_v10 m c) _).trans ?_
  exact transpose_ix2_apply _ _ k j

end Cert.KernelIdeal.AccValue

end
-- ==== Proof.AccValueNorms.lean ====
/-
  What the host operations before the region leave in the row of squared norms, in terms of the positions.

  With `X` the positions as the region finds them, the third operand of the region is one row holding, at `j`, the sum over
  the three coordinates `k` of `X(j,k)·X(j,k)`, started from the initial value zero: the squared norm of row `j`. The
  reading of that row at an entry is stated for any array `X` first, and then for the positions.
-/
import proofs.«131069_j41446434406802_2_alg».proof.Proof.Gen.KernelIdeal.Frame
import proofs.«131069_j41446434406802_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

noncomputable section

namespace Cert.KernelIdeal.AccValue

open Idealize.ShloMosaic Idealize.ShloMosaic.TcCoe Idealize.SL.Sem Idealize.ShloMosaic.ValueIdx
open Idealize.ShloMosaic.StableHlo
open Cert.KernelIdeal Cert.KernelIdeal.Gen
open scoped BigOperators

/-- The row of the sums of `X·X` over the three coordinates, from the initial value zero, as the host computes it. -/
def normRow (X : S8192x3.Idx → EReal) : S1x8192.Idx → EReal :=
  broadcastInDim S1x8192 ![1] bcast_S8192_S1x8192_1
    (Host.reduceAdd (F := Ideal) (mulf (F := Ideal) (φ := .f32) X X)
      (constant (F := Ideal) S_ .f32 0x00000000#32) reducesTo_S8192x3_S8192_d1 h_S_)

/-- Its entry `(0, j)` is the squared norm of row `j`. -/
theorem normRow_apply (X : S8192x3.Idx → EReal) (j : Fin 8192) :
    normRow X (ix2 (0 : Fin 1) j) = Cert.Pairs.n2 X j := by
  have hR : S8192x3.Reduces [1] S8192 := by decide
  unfold normRow
  refine (broadcastInDim_apply _ _ _ (ix2 (0 : Fin 1) j) (ix1 j) (fun a => ?_)).trans ?_
  · match a with
    | ⟨0, _⟩ => rfl
  refine (hostReduceAdd_apply _ _ _ _ _).trans ?_
  refine (Ideal.hostReduceAdd_single _ hR _ _ (ix1 j)).trans ?_
  refine (congrArg (· + _) Ideal.ofBits_zero_f32).trans ?_
  rw [zero_add]
  unfold Cert.Pairs.n2
  show ∑ k : Fin 3, _ = _
  refine Finset.sum_congr rfl fun k _ => ?_
  have e : hR.lift (ix1 j) k = ix2 j k := funext fun a => by
    match a with
    | ⟨0, _⟩ => rfl
    | ⟨1, _⟩ => rfl
  show X (hR.lift (ix1 j) k) * X (hR.lift (ix1 j) k) = _
  rw [e]

variable (m : (ℓ : Loc nD τ sig) → Buf (Elt Ideal) ℓ)

/-- The third operand is that row of the positions. -/
theorem V_v13 (c : Dev nD) : (V m c main_v13 : S1x8192.Idx → EReal) = normRow (V m c main_v6) := by
  unfold normRow
  show StableHlo.after hostOps0 (fun b => m (c, b)) (Proc.devRef .tc main_v13)
    = broadcastInDim S1x8192 ![1] bcast_S8192_S1x8192_1
          (Host.reduceAdd (F := Ideal)
            (mulf (F := Ideal) (φ := .f32) (StableHlo.after hostOps0 (fun b => m (c, b)) (Proc.devRef .tc main_v6))
              (StableHlo.after hostOps0 (fun b => m (c, b)) (Proc.devRef .tc main_v6)))
            (constant (F := Ideal) S_ .f32 0x00000000#32) reducesTo_S8192x3_S8192_d1 h_S_)
  after_results_simp <;> rfl

/-- Its entry `(0, j)` is the squared norm of row `j` of the positions. -/
theorem V_v13_apply (c : Dev nD) (j : Fin 8192) :
    V m c main_v13 (ix2 (0 : Fin 1) j) = Cert.Pairs.n2 (V m c main_v6) j :=
  (congrFun (V_v13 m c) _).trans (normRow_apply _ j)

end Cert.KernelIdeal.AccValue

end
-- ==== Proof.AccValueReads.lean ====
/-
  The second and third blocks the body reads at a grid point, entry by entry, in terms of the positions.

  With `X` the positions as the region finds them and `t` a grid point (column tile `t % 8`): the second block's entry
  `(k, c)` is `X(1024·(t%8) + c, k)` — the block is cut from the transpose of `X` —, and the third block's entry `(0, c)` is
  the squared norm of row `1024·(t%8) + c` of `X`.
-/
import proofs.«131069_j41446434406802_2_alg».proof.Proof.AccValueBlocks
import proofs.«131069_j41446434406802_2_alg».proof.Proof.AccValueHost
import proofs.«131069_j41446434406802_2_alg».proof.Proof.AccValueNorms

noncomputable section

namespace Cert.KernelIdeal.AccValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The second block's entry `(k, c)` is the positions' entry `(1024·(t%8) + c, k)`. -/
theorem iblk1_apply (c : Dev nD) (t : Fin cfg0.N) (k : Fin 3) (cc : Fin 1024) :
    (iblk m c 1 t : Vec Ideal S3x1024 .f32) (ix2 k cc)
      = V m c main_v6 (ix2 (⟨1024 * (t.val % 8) + cc.val, col_lt t cc⟩ : Fin 8192) k) :=
  (iblk1_apply_v10 m c t k cc).trans (V_v10_apply m c k _)

/-- The third block's entry `(0, c)` is the squared norm of the positions' row `1024·(t%8) + c`. -/
theorem iblk2_apply (c : Dev nD) (t : Fin cfg0.N) (cc : Fin 1024) :
    (iblk m c 2 t : Vec Ideal S1x1024 .f32) (ix2 (0 : Fin 1) cc)
      = Cert.Pairs.n2 (V m c main_v6) (⟨1024 * (t.val % 8) + cc.val, col_lt t cc⟩ : Fin 8192) :=
  (iblk2_apply_v13 m c t cc).trans (V_v13_apply m c _)

end Cert.KernelIdeal.AccValue

end
-- ==== Proof.AccValuePay.lean ====
/-
  The tile of squared distances at an entry.

  For a block `a` of 1024 rows of 3 coordinates, the transposed block `b` (3 rows of 1024 coordinates) and a row `n` of
  1024 squared norms, the body's tile has, at row `r` and column `c`,
      ((a(r,0)² + a(r,1)²) + a(r,2)² + n(0,c)) − 2 · ((a(r,0)·b(0,c) + a(r,1)·b(1,c)) + a(r,2)·b(2,c)),
  the constant 2 kept as the word the program prints. The zero column the accumulator is reset to is 0 at every row.
  Three layout facts are used: a column of a matrix repeated along the rows' direction reads the column's entry of that
  row; a vector viewed as a column reads the vector's entry; one row repeated over many reads that row's entry.
-/
import proofs.«131069_j41446434406802_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AccValue

open Idealize.ShloMosaic Idealize.ShloMosaic.ValueIdx
open Cert.KernelIdeal Cert.KernelIdeal.Gen

/-! ## Layout facts for columns -/

/-- A column `[a, 1]` repeated to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column `[a, 1]` reads, at `(i, u)`, the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The payloads -/

/-- The zero column is 0 at every row. -/
theorem pay1_apply (r : Fin 1024) : k0_pay1 (F := Ideal) (ix2 r (0 : Fin 1)) = 0 := by
  unfold k0_pay1
  refine (congrFun (shapeCast_self _ _) _).trans ?_
  exact Ideal.ofBits_zero_f32

/-- The tile of squared distances at row `r` and column `c`. -/
theorem pay2_apply (x0 : Vec Ideal S1024x3 .f32) (x1 : Vec Ideal S3x1024 .f32) (x2 : Vec Ideal S1x1024 .f32)
    (r c : Fin 1024) :
    k0_pay2 x0 x1 x2 (ix2 r c)
      = (((x0 (ix2 r (0 : Fin 3)) * x0 (ix2 r (0 : Fin 3)) + x0 (ix2 r (1 : Fin 3)) * x0 (ix2 r (1 : Fin 3)))
            + x0 (ix2 r (2 : Fin 3)) * x0 (ix2 r (2 : Fin 3))) + x2 (ix2 (0 : Fin 1) c))
        - Ideal.ofBits .f32 0x40000000#32
          * ((x0 (ix2 r (0 : Fin 3)) * x1 (ix2 (0 : Fin 3) c) + x0 (ix2 r (1 : Fin 3)) * x1 (ix2 (1 : Fin 3) c))
              + x0 (ix2 r (2 : Fin 3)) * x1 (ix2 (2 : Fin 3) c)) := by
  unfold k0_pay2
  simp only [subf_apply, addf_apply, mulf_apply, broadcast_apply, shapeCast_self,
    broadcastTo_a1_ab_apply, broadcastTo_1b_ab_apply]
  rw [slice2_axis1_apply 0 x0 _ r (0 : Fin 1) (0 : Fin 3) rfl,
    slice2_axis1_apply 1 x0 _ r (0 : Fin 1) (1 : Fin 3) rfl,
    slice2_axis1_apply 2 x0 _ r (0 : Fin 1) (2 : Fin 3) rfl,
    slice2_axis0_apply 0 x1 _ (0 : Fin 1) c (0 : Fin 3) rfl,
    slice2_axis0_apply 1 x1 _ (0 : Fin 1) c (1 : Fin 3) rfl,
    slice2_axis0_apply 2 x1 _ (0 : Fin 1) c (2 : Fin 3) rfl]
  rfl

end Cert.KernelIdeal.AccValue

end
-- ==== Proof.AccValuePaySum.lean ====
/-
  The row sums the body adds to the accumulator, entry by entry.

  On a tile off the diagonal the body adds, to row `r` of the accumulator, the sum over the tile's 1024 columns `c` of
  the inverse square root of the squared distance kept above ε; on a diagonal tile the summand at `c = r` is replaced
  by 0 (the squared distance there is first replaced by 1, whose inverse square root is then discarded). The mask is
  the comparison of a row counter and a column counter held as 32-bit words: two numbers below 1024 are equal words
  exactly when they are equal numbers. The sum along the columns starts from the word of zero, and its result, a vector
  of 1024 entries, is viewed as a column.
-/
import proofs.«131069_j41446434406802_2_alg».proof.Proof.AccValuePay
import Idealize.ShloMosaic.Lib.Affine

noncomputable section

namespace Cert.KernelIdeal.AccValue

open Idealize.ShloMosaic Idealize.ShloMosaic.ValueIdx
open Cert.KernelIdeal Cert.KernelIdeal.Gen
open scoped BigOperators

/-- The sum along the columns of a 1024 × 1024 tile, from the zero word, at row `r`. -/
theorem lane_sum (src : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ c : Fin 1024, src (ix2 r c) := by
  refine (Ideal.multiReduction_add_single src 0x00000000#32 h hφ hacc (ix1 r)).trans ?_
  show ∑ k : Fin 1024, src (h.lift (ix1 r) k) = _
  refine Finset.sum_congr rfl fun k _ => congrArg src (funext fun a => ?_)
  match a with
  | ⟨0, _⟩ => rfl
  | ⟨1, _⟩ => rfl

/-- Two numbers below 1024 are equal as 32-bit words exactly when they are equal. -/
theorem word_eq_iff (r c : Fin 1024) : BitVec.ofNat 32 r.val = BitVec.ofNat 32 c.val ↔ r = c := by
  constructor
  · intro h
    have h' := congrArg BitVec.toNat h
    rw [BitVec.toNat_ofNat, BitVec.toNat_ofNat] at h'
    have hr := r.isLt
    have hc := c.isLt
    apply Fin.ext
    omega
  · rintro rfl; rfl

/-- The mask of a diagonal tile at `(r, c)`: the row counter equals the column counter exactly on the diagonal. -/
theorem diag_word (h0 : S1024x1024.Iotas .tc 32 [0]) (h1 : S1024x1024.Iotas .tc 32 [1]) (r c : Fin 1024) :
    cmpi .eq (iota .tc S1024x1024 32 [0] h0) (iota .tc S1024x1024 32 [1] h1) (ix2 r c)
      = if r = c then 1#1 else 0#1 := by
  show IntOp.cmpi .eq (iota .tc S1024x1024 32 [0] h0 (ix2 r c)) (iota .tc S1024x1024 32 [1] h1 (ix2 r c)) = _
  rw [iota_single_apply, iota_single_apply]
  show IntOp.cmpi .eq (BitVec.ofNat 32 r.val) (BitVec.ofNat 32 c.val) = _
  by_cases h : r = c
  · rw [if_pos h]; exact IntOp.cmpi_eq.mpr ((word_eq_iff r c).mpr h)
  · rw [if_neg h]; exact eq_zero_of_ne_one fun e => h ((word_eq_iff r c).mp (IntOp.cmpi_eq.mp e))

/-- The masked summand of a diagonal tile at `(r, c)`: 0 on the diagonal, the inverse square root of the squared distance
    kept above ε elsewhere. -/
theorem masked_apply (x : FVec Ideal S1024x1024 .f32) (h0 : S1024x1024.Iotas .tc 32 [0]) (h1 : S1024x1024.Iotas .tc 32 [1])
    (r c : Fin 1024) :
    select (cmpi .eq (iota .tc S1024x1024 32 [0] h0) (iota .tc S1024x1024 32 [1] h1))
        (broadcast S1024x1024 (Scalar.ofBits (F := Ideal) .f32 0x00000000#32))
        (rsqrt (select (cmpi .eq (iota .tc S1024x1024 32 [0] h0) (iota .tc S1024x1024 32 [1] h1))
          (broadcast S1024x1024 (Scalar.ofBits (F := Ideal) .f32 0x3F800000#32))
          (maximumf x (broadcast S1024x1024 (Scalar.ofBits (F := Ideal) .f32 0x2B8CBCCC#32))))) (ix2 r c)
      = if r = c then 0 else Ideal.rsqrt (max (x (ix2 r c)) (Ideal.ofBits .f32 0x2B8CBCCC#32)) := by
  show Scalar.select (cmpi .eq (iota .tc S1024x1024 32 [0] h0) (iota .tc S1024x1024 32 [1] h1) (ix2 r c))
      (Ideal.ofBits .f32 0x00000000#32)
      (Ideal.rsqrt (Scalar.select (cmpi .eq (iota .tc S1024x1024 32 [0] h0) (iota .tc S1024x1024 32 [1] h1) (ix2 r c))
        (Ideal.ofBits .f32 0x3F800000#32) (max (x (ix2 r c)) (Ideal.ofBits .f32 0x2B8CBCCC#32)))) = _
  rw [diag_word]
  by_cases h : r = c
  · rw [if_pos h, if_pos h, select_one, Ideal.ofBits_zero_f32]
  · rw [if_neg h, if_neg h, select_zero, select_zero]

/-- An off-diagonal tile adds, to row `r`, the sum over its columns of the inverse distances. -/
theorem pay4_apply (x0 : Vec Ideal S1024x3 .f32) (x1 : Vec Ideal S3x1024 .f32) (x2 : Vec Ideal S1x1024 .f32)
    (s : Vec Ideal S1024x1 .f32) (r : Fin 1024) :
    k0_pay4 x0 x1 x2 s (ix2 r (0 : Fin 1))
      = s (ix2 r (0 : Fin 1))
        + ∑ c : Fin 1024, Ideal.rsqrt (max (k0_pay2 x0 x1 x2 (ix2 r c)) (Ideal.ofBits .f32 0x2B8CBCCC#32)) := by
  unfold k0_pay4
  dsimp only
  refine (congrFun (shapeCast_self _ _) _).trans ?_
  refine (addf_apply _ _ _).trans ?_
  refine congrArg (s (ix2 r (0 : Fin 1)) + ·) ?_
  refine (shapeCast_a_a1_apply _ _ r (0 : Fin 1)).trans ?_
  refine (lane_sum _ _ _ _ r).trans ?_
  rfl

/-- A diagonal tile adds the same sum with the diagonal entry left out. -/
theorem pay3_apply (x0 : Vec Ideal S1024x3 .f32) (x1 : Vec Ideal S3x1024 .f32) (x2 : Vec Ideal S1x1024 .f32)
    (s : Vec Ideal S1024x1 .f32) (r : Fin 1024) :
    k0_pay3 x0 x1 x2 s (ix2 r (0 : Fin 1))
      = s (ix2 r (0 : Fin 1))
        + ∑ c : Fin 1024, if r = c then 0
            else Ideal.rsqrt (max (k0_pay2 x0 x1 x2 (ix2 r c)) (Ideal.ofBits .f32 0x2B8CBCCC#32)) := by
  unfold k0_pay3
  dsimp only
  refine (congrFun (shapeCast_self _ _) _).trans ?_
  refine (addf_apply _ _ _).trans ?_
  refine congrArg (s (ix2 r (0 : Fin 1)) + ·) ?_
  refine (shapeCast_a_a1_apply _ _ r (0 : Fin 1)).trans ?_
  refine (lane_sum _ _ _ _ r).trans ?_
  exact Finset.sum_congr rfl fun c _ => masked_apply (k0_pay2 x0 x1 x2) _ _ r c

end Cert.KernelIdeal.AccValue

end
-- ==== Proof.LibBlockSum.lean ====
/-
  Regrouping a long sum into consecutive blocks.

  A sum over `a * b` consecutive indices is the sum, over the `a` blocks, of the sum over the `b`
  indices inside each block: index `k` of the long sum is `j + b * i` for block `i` and offset `j`.
  Only commutativity and associativity of addition are used, so the law holds in every commutative
  additive monoid — in particular on the extended reals, infinities included.
-/
import Idealize.ShloMosaic.PureOps.Ideal

namespace Cert.BlockSum

open BigOperators

/-- The sum over `Fin (a * b)` split into `a` blocks of `b` consecutive terms. -/
theorem sum_blocks {M : Type*} [AddCommMonoid M] (a b : ℕ) (f : Fin (a * b) → M) :
    ∑ k : Fin (a * b), f k = ∑ i : Fin a, ∑ j : Fin b, f (finProdFinEquiv (i, j)) := by
  rw [← finProdFinEquiv.sum_comp, Fintype.sum_prod_type]

/-- The position of offset `j` of block `i` in the long sum. -/
theorem block_index_val (a b : ℕ) (i : Fin a) (j : Fin b) :
    (finProdFinEquiv (i, j) : Fin (a * b)).val = j.val + b * i.val := rfl

/-- The same law for a function of the natural position: the long sum runs over positions `0 … a·b − 1`, block `s`
    holds positions `b·s … b·s + b − 1`, and the blocks are counted by `Finset.range a`. -/
theorem sum_range_blocks {M : Type*} [AddCommMonoid M] (a b : ℕ) (f : ℕ → M) :
    ∑ k : Fin (a * b), f k.val = ∑ s ∈ Finset.range a, ∑ j : Fin b, f (b * s + j.val) := by
  rw [Finset.sum_range, sum_blocks a b (fun k => f k.val)]
  refine Finset.sum_congr rfl fun i _ => Finset.sum_congr rfl fun j _ => ?_
  rw [block_index_val, Nat.add_comm]

/-- 4096 terms as 8 blocks of 512. -/
theorem sum_4096 {M : Type*} [AddCommMonoid M] (f : ℕ → M) :
    ∑ k : Fin 4096, f k.val = ∑ s ∈ Finset.range 8, ∑ j : Fin 512, f (512 * s + j.val) :=
  sum_range_blocks 8 512 f

end Cert.BlockSum
-- ==== Proof.AccValueTile.lean ====
/-
  One tile's contribution to a row sum of inverse distances.

  With `X` the positions as the region finds them, `i = 1024·(t/8) + r` a row of the row tile of point `t` and
  `j = 1024·(t%8) + c` a row of its column tile:
    · the body's tile of squared distances has, at `(r, c)`, the squared distance `r2 X i j` of the specification
      (the sums over the three coordinates written out term by term, in the order the body adds them);
    · `i = j` exactly when the tile is diagonal and `r = c`; so an off-diagonal tile has no diagonal entry and its
      unmasked summand is the inverse distance, and on a diagonal tile the masked summand is;
    · so each kind of tile contributes `Σ_c rinv X i (1024·(t%8) + c)`.
  The row sum over all 8192 columns is the sum of the eight tiles' contributions (a long sum regrouped into consecutive
  blocks); `part X i k` is the sum of the first `k` tiles' contributions.
-/
import proofs.«131069_j41446434406802_2_alg».proof.Proof.AccValueReads
import proofs.«131069_j41446434406802_2_alg».proof.Proof.AccValuePaySum
import proofs.«131069_j41446434406802_2_alg».proof.Proof.LibBlockSum

noncomputable section

namespace Cert.KernelIdeal.AccValue

open Idealize.ShloMosaic Idealize.ShloMosaic.TcCoe Idealize.SL.Sem Idealize.ShloMosaic.ValueIdx
open Cert.KernelIdeal Cert.KernelIdeal.Gen
open scoped BigOperators

/-! ## The specification's sums over the three coordinates, term by term -/

theorem n2_three (X : Cert.Pairs.SPos.Idx → EReal) (i : Fin 8192) :
    Cert.Pairs.n2 X i
      = (X (ix2 i (0 : Fin 3)) * X (ix2 i (0 : Fin 3)) + X (ix2 i (1 : Fin 3)) * X (ix2 i (1 : Fin 3)))
        + X (ix2 i (2 : Fin 3)) * X (ix2 i (2 : Fin 3)) := by
  unfold Cert.Pairs.n2; exact Fin.sum_univ_three _

theorem dot_three (X : Cert.Pairs.SPos.Idx → EReal) (i j : Fin 8192) :
    Cert.Pairs.dot X i j
      = (X (ix2 i (0 : Fin 3)) * X (ix2 j (0 : Fin 3)) + X (ix2 i (1 : Fin 3)) * X (ix2 j (1 : Fin 3)))
        + X (ix2 i (2 : Fin 3)) * X (ix2 j (2 : Fin 3)) := by
  unfold Cert.Pairs.dot; exact Fin.sum_univ_three _

/-! ## The inverse distance at a natural position, and the partial row sums -/

/-- The inverse distance of row `i` and the row at natural position `p` (0 past the last row). -/
def rinvN (X : Cert.Pairs.SPos.Idx → EReal) (i : Fin 8192) (p : ℕ) : EReal :=
  if h : p < 8192 then Cert.Pairs.rinv X i ⟨p, h⟩ else 0

theorem rinvN_of_lt (X : Cert.Pairs.SPos.Idx → EReal) (i : Fin 8192) {p : ℕ} (h : p < 8192) :
    rinvN X i p = Cert.Pairs.rinv X i ⟨p, h⟩ := dif_pos h

/-- The sum of the first `k` column tiles' inverse distances in row `i`. -/
def part (X : Cert.Pairs.SPos.Idx → EReal) (i : Fin 8192) (k : ℕ) : EReal :=
  ∑ s ∈ Finset.range k, ∑ c : Fin 1024, rinvN X i (1024 * s + c.val)

theorem part_zero (X : Cert.Pairs.SPos.Idx → EReal) (i : Fin 8192) : part X i 0 = 0 := Finset.sum_range_zero _

theorem part_succ (X : Cert.Pairs.SPos.Idx → EReal) (i : Fin 8192) (k : ℕ) :
    part X i (k + 1) = part X i k + ∑ c : Fin 1024, rinvN X i (1024 * k + c.val) := Finset.sum_range_succ _ _

/-- All eight tiles: the whole row sum. -/
theorem part_eight (X : Cert.Pairs.SPos.Idx → EReal) (i : Fin 8192) :
    part X i 8 = ∑ j : Fin 8192, Cert.Pairs.rinv X i j := by
  have h : ∑ k : Fin 8192, rinvN X i k.val = part X i 8 := Cert.BlockSum.sum_range_blocks 8 1024 (rinvN X i)
  rw [← h]
  exact Finset.sum_congr rfl fun k _ => rinvN_of_lt X i k.isLt

/-- Rows `1024·a + r` and `1024·b + c` coincide exactly when the tiles and the rows inside them do. -/
theorem glob_eq_iff (a b : ℕ) (r c : Fin 1024) (h1 : 1024 * a + r.val < 8192) (h2 : 1024 * b + c.val < 8192) :
    (⟨1024 * a + r.val, h1⟩ : Fin 8192) = ⟨1024 * b + c.val, h2⟩ ↔ a = b ∧ r = c := by
  have hr := r.isLt
  have hc := c.isLt
  constructor
  · intro h
    have h' : 1024 * a + r.val = 1024 * b + c.val := congrArg Fin.val h
    exact ⟨by omega, Fin.ext (by omega)⟩
  · rintro ⟨rfl, rfl⟩; rfl

/-! ## A tile's entries and its contribution -/

variable (m : (ℓ : Loc nD τ sig) → Buf (Elt Ideal) ℓ)

/-- The body's tile of squared distances at `(r, c)` is the specification's squared distance of the two rows. -/
theorem tile_entry (c : Dev nD) (t : Fin cfg0.N) (r cc : Fin 1024) :
    k0_pay2 (iblk m c 0 t) (iblk m c 1 t) (iblk m c 2 t) (ix2 r cc)
      = Cert.Pairs.r2 (V m c main_v6) ⟨1024 * (t.val / 8) + r.val, row_lt t r⟩
          ⟨1024 * (t.val % 8) + cc.val, col_lt t cc⟩ := by
  refine (pay2_apply (iblk m c 0 t) (iblk m c 1 t) (iblk m c 2 t) r cc).trans ?_
  rw [iblk0_apply m c t r 0, iblk0_apply m c t r 1, iblk0_apply m c t r 2,
    iblk1_apply m c t 0 cc, iblk1_apply m c t 1 cc, iblk1_apply m c t 2 cc, iblk2_apply m c t cc]
  unfold Cert.Pairs.r2
  rw [n2_three (V m c main_v6) ⟨1024 * (t.val / 8) + r.val, row_lt t r⟩, dot_three]

/-- An off-diagonal tile's unmasked sum is the tile's contribution to the row sum. -/
theorem tile_off (c : Dev nD) (t : Fin cfg0.N) (hd : ¬ t.val / 8 = t.val % 8) (r : Fin 1024) :
    ∑ cc : Fin 1024, Ideal.rsqrt (max (k0_pay2 (iblk m c 0 t) (iblk m c 1 t) (iblk m c 2 t) (ix2 r cc))
        (Ideal.ofBits .f32 0x2B8CBCCC#32))
      = ∑ cc : Fin 1024, rinvN (V m c main_v6) ⟨1024 * (t.val / 8) + r.val, row_lt t r⟩ (1024 * (t.val % 8) + cc.val) := by
  refine Finset.sum_congr rfl fun cc _ => ?_
  rw [tile_entry m c t r cc, rinvN_of_lt _ _ (col_lt t cc)]
  unfold Cert.Pairs.rinv
  rw [if_neg fun h => hd ((glob_eq_iff _ _ r cc _ _).mp h).1]

/-- A diagonal tile's masked sum is the tile's contribution to the row sum. -/
theorem tile_diag (c : Dev nD) (t : Fin cfg0.N) (hd : t.val / 8 = t.val % 8) (r : Fin 1024) :
    ∑ cc : Fin 1024, (if r = cc then 0 else
        Ideal.rsqrt (max (k0_pay2 (iblk m c 0 t) (iblk m c 1 t) (iblk m c 2 t) (ix2 r cc)) (Ideal.ofBits .f32 0x2B8CBCCC#32)))
      = ∑ cc : Fin 1024, rinvN (V m c main_v6) ⟨1024 * (t.val / 8) + r.val, row_lt t r⟩ (1024 * (t.val % 8) + cc.val) := by
  refine Finset.sum_congr rfl fun cc _ => ?_
  rw [rinvN_of_lt _ _ (col_lt t cc)]
  unfold Cert.Pairs.rinv
  by_cases h : r = cc
  · rw [if_pos h, if_pos ((glob_eq_iff _ _ r cc _ _).mpr ⟨hd, h⟩)]
  · rw [if_neg h, if_neg fun e => h ((glob_eq_iff _ _ r cc _ _).mp e).2, tile_entry m c t r cc]

end Cert.KernelIdeal.AccValue

end
-- ==== Proof.AccValue.lean ====
/-
  What the kernel's row-sum accumulator holds, at the ideal values.

  With `X` the positions as the region finds them and the grid point `n` standing for row tile `n / 8` and column tile
  `n % 8`: after point `n`, row `r` of the accumulator holds the sum, over the column tiles `0 … n % 8` and the 1024
  columns of each, of the inverse distances of row `1024·(n/8) + r` of `X` to those rows — the diagonal left out. By
  induction on the point: the first column tile starts from the zero column, every other one from what the point
  before left (the same row tile, one column tile fewer), and the tile at the point adds its contribution — through the
  masked row sums on a diagonal tile, through the unmasked ones elsewhere. After the last column tile of a row tile the
  accumulator's row `r` is therefore the whole row sum `Σ_j rinv X (1024·(n/8) + r) j` over all 8192 rows `j`.
  Nothing is cancelled or distributed: only the commutative monoid of the extended reals under addition is used.
-/
import proofs.«131069_j41446434406802_2_alg».proof.Proof.Acc
import proofs.«131069_j41446434406802_2_alg».proof.Proof.AccValueTile

noncomputable section

namespace Cert.KernelIdeal.AccValue

open Idealize.ShloMosaic Idealize.ShloMosaic.TcCoe Idealize.SL.Sem Idealize.ShloMosaic.ValueIdx
open Cert.KernelIdeal Cert.KernelIdeal.Gen
open scoped BigOperators

variable (m : (ℓ : Loc nD τ sig) → Buf (Elt Ideal) ℓ)

/-- Row `r` of the row tile of point `t`, as a row of the positions. -/
abbrev rowOf (t : Fin cfg0.N) (r : Fin 1024) : Fin 8192 := ⟨1024 * (t.val / 8) + r.val, row_lt t r⟩

/-- A diagonal tile takes the sum of the column tiles before it to the sum through it. -/
theorem step_diag (c : Dev nD) (t : Fin cfg0.N) (hd : t.val / 8 = t.val % 8) (s : Vec Ideal S1024x1 .f32) (r : Fin 1024)
    (hs : s (ix2 r (0 : Fin 1)) = part (V m c main_v6) (rowOf t r) (t.val % 8)) :
    k0_pay3 (iblk m c 0 t) (iblk m c 1 t) (iblk m c 2 t) s (ix2 r (0 : Fin 1))
      = part (V m c main_v6) (rowOf t r) (t.val % 8 + 1) := by
  refine (pay3_apply (iblk m c 0 t) (iblk m c 1 t) (iblk m c 2 t) s r).trans ?_
  rw [hs, tile_diag m c t hd r]
  exact (part_succ _ _ _).symm

/-- An off-diagonal tile does the same. -/
theorem step_off (c : Dev nD) (t : Fin cfg0.N) (hd : ¬ t.val / 8 = t.val % 8) (s : Vec Ideal S1024x1 .f32) (r : Fin 1024)
    (hs : s (ix2 r (0 : Fin 1)) = part (V m c main_v6) (rowOf t r) (t.val % 8)) :
    k0_pay4 (iblk m c 0 t) (iblk m c 1 t) (iblk m c 2 t) s (ix2 r (0 : Fin 1))
      = part (V m c main_v6) (rowOf t r) (t.val % 8 + 1) := by
  refine (pay4_apply (iblk m c 0 t) (iblk m c 1 t) (iblk m c 2 t) s r).trans ?_
  rw [hs, tile_off m c t hd r]
  exact (part_succ _ _ _).symm

/-- After point `n`, row `r` of the accumulator is the sum over the column tiles `0 … n % 8` of the inverse distances of row
    `1024·(n/8) + r`. -/
theorem acc_inv (c : Dev nD) : ∀ (n : ℕ) (hn : n < cfg0.N) (r : Fin 1024),
    Cert.KernelIdeal.Body.accAt (F := Ideal) m c n hn (ix2 r (0 : Fin 1))
      = part (V m c main_v6) (rowOf ⟨n, hn⟩ r) (n % 8 + 1)
  | 0, hn, r => by
    refine (congrFun (Cert.KernelIdeal.Body.accAt_zero m c hn) (ix2 r (0 : Fin 1))).trans ?_
    exact step_diag m c ⟨0, hn⟩ ((Nat.zero_div 8).trans (Nat.zero_mod 8).symm) _ r ((pay1_apply r).trans (part_zero _ _).symm)
  | n + 1, hn, r => by
    have hN : cfg0.N = 64 := N_0
    refine (congrFun (Cert.KernelIdeal.Body.accAt_succ m c n hn) (ix2 r (0 : Fin 1))).trans ?_
    have hprev : (if (n + 1) % 8 = 0 then k0_pay1 (F := Ideal)
          else Cert.KernelIdeal.Body.accAt m c n (Nat.lt_of_succ_lt hn)) (ix2 r (0 : Fin 1))
        = part (V m c main_v6) (rowOf ⟨n + 1, hn⟩ r) ((n + 1) % 8) := by
      by_cases h0 : (n + 1) % 8 = 0
      · rw [if_pos h0, h0]
        exact (pay1_apply r).trans (part_zero _ _).symm
      · rw [if_neg h0, acc_inv c n (Nat.lt_of_succ_lt hn) r]
        have e1 : rowOf ⟨n, Nat.lt_of_succ_lt hn⟩ r = rowOf ⟨n + 1, hn⟩ r :=
          Fin.ext (by show 1024 * (n / 8) + r.val = 1024 * ((n + 1) / 8) + r.val; omega)
        have e2 : n % 8 + 1 = (n + 1) % 8 := by omega
        rw [e1, e2]
    by_cases hd : (n + 1) / 8 = (n + 1) % 8
    · rw [if_pos hd]
      exact step_diag m c ⟨n + 1, hn⟩ hd _ r hprev
    · rw [if_neg hd]
      exact step_off m c ⟨n + 1, hn⟩ hd _ r hprev

/-- After the last column tile of a row tile, row `r` of the accumulator is the whole row sum of inverse distances of
    row `1024·(t/8) + r` of the positions. -/
theorem acc_row (c : Dev nD) (t : Fin cfg0.N) (ht : t.val % 8 = 7) (r : Fin 1024) :
    Cert.KernelIdeal.Body.accAt (F := Ideal) m c t.val t.isLt (ix2 r 0)
      = ∑ j : Fin 8192, Cert.Pairs.rinv (Gen.V m c main_v6)
          ⟨1024 * (t.val / 8) + r.val, by have := t.isLt; have : cfg0.N = 64 := N_0; omega⟩ j := by
  refine (acc_inv m c t.val t.isLt r).trans ?_
  rw [ht]
  exact part_eight _ _

end Cert.KernelIdeal.AccValue

end
-- ==== Proof.RefEnergy.lean ====
/-
  The reference program computes the energy of the specification.

  Its positions are the scattered array X (left opaque: whatever the scatter writes, both programs write the
  same). Read at a pair of rows (i, j), the reference's [8192, 8192] stages are
    x2[:, None] + x2[None, :]          n2 X i + n2 X j       (each row sum is 0 + Σ_k, the zero dropped)
    X · Xᵀ                             dot X i j             (the transpose read at the swapped index)
    the difference with 2·(X · Xᵀ)     r2 X i j
    the comparison of the two iotas    i = j
    the two selections around rsqrt    rinv X i j            (1 chosen before rsqrt and 0 after it on the diagonal,
                                                              so the diagonal is 0 whatever rsqrt 1 is)
  and the final sum over both axes is 0 + Σ over all index pairs = Σ_i Σ_j. The kinetic term is ½·(0 + Σ over the
  [4096, 3] squares). No finiteness is used: only 0 + a = a and reindexing of finite sums in a commutative monoid.
-/
import proofs.«131069_j41446434406802_2_alg».proof.Proof.Gen.ReferenceIdeal.Run
import proofs.«131069_j41446434406802_2_alg».proof.Proof.Gen.ReferenceIdeal.Read
import proofs.«131069_j41446434406802_2_alg».proof.Proof.Spec

noncomputable section

open scoped BigOperators

namespace Cert.ReferenceIdeal.RefValue

open Cert.ReferenceIdeal Cert.ReferenceIdeal.Gen Cert.ReferenceIdeal.Read Cert.Pairs
open Idealize.ShloMosaic Idealize.ShloMosaic.ValueIdx Idealize.ShloMosaic.TcCoe Idealize.SL.Sem

/-! ## The positions -/

/-- The positions both energies are taken of: the fixed rows `a2` with the free rows `a0` written at the
    rows `a3` names (a negative row number counted from the end). -/
def Xref (a2 : FVec Ideal S8192x3 .f32) (a3 : IVec S4096 32) (a0 : FVec Ideal S4096x3 .f32) : S8192x3.Idx → EReal :=
  Host.scatter scatter_S8192x3_S4096x1_S4096x3_1_0_0_1 (fun _ b => b) a2
    (broadcastInDim S4096x1 ![0] bcast_S4096_S4096x1_0
      (select (cmpi .slt a3 (broadcastInDim S4096 ![] bcast_S_S4096 (constantI S_ 32 0#32)))
        (addi a3 (broadcastInDim S4096 ![] bcast_S_S4096 (constantI S_ 32 8192#32))) a3)) a0

/-- The reference's scatter stage is that array. -/
theorem val_main_v6_eq (a0 : FVec Ideal S4096x3 .f32) (a2 : FVec Ideal S8192x3 .f32) (a3 : IVec S4096 32) :
    val_main_v6 (F := Ideal) a0 a2 a3 = Xref a2 a3 a0 := rfl

/-- The definition spelled out: `a0` scattered into `a2` at the row numbers of `a3`, each negative one moved up by 8192. -/
theorem Xref_def (a2 : FVec Ideal S8192x3 .f32) (a3 : IVec S4096 32) (a0 : FVec Ideal S4096x3 .f32) :
    Xref a2 a3 a0 = Host.scatter scatter_S8192x3_S4096x1_S4096x3_1_0_0_1 (fun _ b => b) a2
      (broadcastInDim S4096x1 ![0] bcast_S4096_S4096x1_0
        (select (cmpi .slt a3 (broadcastInDim S4096 ![] bcast_S_S4096 (constantI S_ 32 0#32)))
          (addi a3 (broadcastInDim S4096 ![] bcast_S_S4096 (constantI S_ 32 8192#32))) a3)) a0 := rfl

/-! ## The composed index maps of the layout stages, at a pair of rows -/

theorem idx11 (i : Fin 8192) (k : Fin 3) : idx_main_v11 (ix1 i) k = ix2 i k :=
  funext fun a => by match a with | ⟨0, _⟩ => rfl | ⟨1, _⟩ => rfl

theorem idx14 (i j : Fin 8192) : idx_main_v12 (idx_main_v14 (ix2 i j)) = ix1 i :=
  funext fun a => by match a with | ⟨0, _⟩ => rfl

theorem idx15 (i j : Fin 8192) : idx_main_v13 (idx_main_v15 (ix2 i j)) = ix1 j :=
  funext fun a => by match a with | ⟨0, _⟩ => rfl

theorem lidx18 (i j : Fin 8192) (k : Fin 3) : lidx_main_v18 (ix2 i j) k = ix2 i k :=
  funext fun a => by match a with | ⟨0, _⟩ => rfl | ⟨1, _⟩ => rfl

theorem ridx18 (i j : Fin 8192) (k : Fin 3) : idx_main_v17 (ridx_main_v18 (ix2 i j) k) = ix2 j k :=
  funext fun a => by match a with | ⟨0, _⟩ => rfl | ⟨1, _⟩ => rfl

/-! ## The stages at a pair of rows -/

variable (a0 : FVec Ideal S4096x3 .f32) (a2 : FVec Ideal S8192x3 .f32) (a3 : IVec S4096 32)

/-- A row's sum of squares: the host sum is 0 + Σ_k, and the zero word is 0. -/
theorem v11_at (i : Fin 8192) :
    val_main_v11 (F := Ideal) a0 a2 a3 (ix1 i) = n2 (Xref a2 a3 a0) i := by
  rw [val_main_v11_apply, val_main_cst_2_apply, Ideal.ofBits_def, Ideal.ofBits_zero_f32, zero_add]
  unfold n2
  refine Finset.sum_congr rfl fun k _ => ?_
  rw [val_main_v10_apply, Ideal.mulf_def, idx11, val_main_v6_eq]

/-- x2[:, None] + x2[None, :] at (i, j): both broadcasts read the row sums, at i and at j. -/
theorem v16_at (i j : Fin 8192) :
    val_main_v16 (F := Ideal) a0 a2 a3 (ix2 i j) = n2 (Xref a2 a3 a0) i + n2 (Xref a2 a3 a0) j := by
  rw [val_main_v16_apply, Ideal.addf_def, val_main_v14_apply, val_main_v12_apply, idx14,
    val_main_v15_apply, val_main_v13_apply, idx15, v11_at, v11_at]

/-- X · Xᵀ at (i, j): the contraction over the three coordinates, the transpose read at the swapped index. -/
theorem v18_at (i j : Fin 8192) :
    val_main_v18 (F := Ideal) a0 a2 a3 (ix2 i j) = dot (Xref a2 a3 a0) i j := by
  rw [val_main_v18_apply]
  unfold dot
  refine Finset.sum_congr rfl fun k _ => ?_
  rw [val_main_v17_apply, lidx18, ridx18, val_main_v6_eq]

/-- The squared distance by the polarization identity, the factor 2 kept as its word. -/
theorem v21_at (i j : Fin 8192) :
    val_main_v21 (F := Ideal) a0 a2 a3 (ix2 i j) = r2 (Xref a2 a3 a0) i j := by
  rw [val_main_v21_apply, Ideal.subf_def, val_main_v20_apply, Ideal.mulf_def, val_main_v19_apply,
    val_main_cst_3_apply, Ideal.ofBits_def, v16_at, v18_at]
  rfl

/-- The row iota (plus the zero offset) meets the column iota exactly on the diagonal: both row numbers are
    below 2³², so their 32-bit words are equal only if they are. -/
theorem v26_at (i j : Fin 8192) :
    val_main_v26 (F := Ideal) (ix2 i j) = 1#1 ↔ i = j := by
  rw [val_main_v26_apply, val_main_v25_apply, val_main_v22_apply, val_main_v24_apply, val_main_c_4_apply,
    val_main_v23_apply, IntOp.cmpi_eq]
  show IntOp.addi (BitVec.ofNat 32 i.val) 0#32 = BitVec.ofNat 32 j.val ↔ i = j
  unfold IntOp.addi
  rw [BitVec.add_zero]
  constructor
  · intro h
    have h' := congrArg BitVec.toNat h
    simp only [BitVec.toNat_ofNat] at h'
    have hi := i.isLt
    have hj := j.isLt
    rw [Nat.mod_eq_of_lt (by omega), Nat.mod_eq_of_lt (by omega)] at h'
    exact Fin.ext h'
  · rintro rfl
    rfl

/-- The inverse distance with the diagonal left out. On the diagonal the outer selection takes the zero word
    (what rsqrt made of the 1 selected inside is never read); off it both selections pass their third operand, so the
    value is rsqrt of the squared distance kept above ε. -/
theorem v31_at (i j : Fin 8192) :
    val_main_v31 (F := Ideal) a0 a2 a3 (ix2 i j) = rinv (Xref a2 a3 a0) i j := by
  rw [val_main_v31_apply, val_main_v30_apply, val_main_v29_apply]
  unfold rinv Scalar.select
  by_cases h : i = j
  · have hc : val_main_v26 (F := Ideal) (ix2 i j) = 1 := (v26_at i j).mpr h
    rw [if_pos hc, if_pos h, val_main_call1_v1_apply, val_main_call1_v0_apply, val_main_cst_7_apply,
      Ideal.ofBits_def, Ideal.ofBits_zero_f32]
  · have hc : ¬ val_main_v26 (F := Ideal) (ix2 i j) = 1 := fun hc => h ((v26_at i j).mp hc)
    rw [if_neg hc, if_neg hc, if_neg h, Ideal.hostUnary_rsqrt_def, val_main_v28_apply, Ideal.maximumf_def,
      v21_at, val_main_v27_apply, val_main_cst_5_apply, Ideal.ofBits_def]

/-- The sum over both axes, 0 + Σ over all index pairs, is the sum over ordered pairs of rows. -/
theorem v32_at (s : S_.Idx) :
    val_main_v32 (F := Ideal) a0 a2 a3 s = total (Xref a2 a3 a0) := by
  rw [val_main_v32_apply, val_main_cst_8_apply, Ideal.ofBits_def, Ideal.ofBits_zero_f32, zero_add, sum_idx2]
  unfold total
  exact Finset.sum_congr rfl fun i _ => Finset.sum_congr rfl fun j _ => v31_at a0 a2 a3 i j

/-- Half the sum of the squared velocities: ½ · (0 + Σ over the [4096, 3] squares), the ½ kept as its word. -/
theorem v9_at (a1 : FVec Ideal S4096x3 .f32) (s : S_.Idx) :
    val_main_v9 (F := Ideal) a1 s = kinetic a1 := by
  rw [val_main_v9_apply, Ideal.mulf_def, val_main_cst_1_apply, Ideal.ofBits_def, val_main_v8_apply,
    val_main_cst_apply, Ideal.ofBits_def, Ideal.ofBits_zero_f32, zero_add, sum_idx2]
  unfold kinetic
  refine congrArg (_ * ·) (Finset.sum_congr rfl fun i _ => Finset.sum_congr rfl fun k _ => ?_)
  rw [val_main_v7_apply, Ideal.mulf_def]

/-! ## The result -/

/-- The reference's result, as a function of the four argument arrays, is the energy of the scattered positions
    and the velocities. -/
theorem ref_energy (a0 a1 : FVec Ideal S4096x3 .f32) (a2 : FVec Ideal S8192x3 .f32) (a3 : IVec S4096 32) (s : S_.Idx) :
    val_main_v33 (F := Ideal) a0 a1 a2 a3 s = energy (Xref a2 a3 a0) a1 := by
  rw [val_main_v33_apply, Ideal.subf_def, v9_at, v32_at]
  rfl

/-- The term the reference's run ends its result at is that energy, of the launch contents of the arguments. -/
theorem res_energy (m : (ℓ : Loc nD τ sig) → Buf (Elt Ideal) ℓ) (c : Dev nD) (s : S_.Idx) :
    Cert.ReferenceIdeal.Value.res_main_v33 (F := Ideal) m c s
      = energy (Xref (m ((c.tc : Thread nD τ).loc main_arg2)) (m ((c.tc : Thread nD τ).loc main_arg3))
          (m ((c.tc : Thread nD τ).loc main_arg0))) (m ((c.tc : Thread nD τ).loc main_arg1)) := by
  rw [val_main_v33_eq]
  exact ref_energy _ _ _ _ s

/-- Every weakly fair execution of the reference ends with its result at the energy of the scattered positions and
    the velocities, and its four arguments unchanged. -/
theorem run_energy (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      fun r => ∀ c : Dev nD,
        r.2.mem ((c.tc : Thread nD τ).loc main_v33)
          = (fun _ => energy (Xref (m ((c.tc : Thread nD τ).loc main_arg2)) (m ((c.tc : Thread nD τ).loc main_arg3))
              (m ((c.tc : Thread nD τ).loc main_arg0))) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run Cert.ReferenceIdeal.defs _ _).mono
    (fun _ h c => ⟨(h c).1.trans (funext fun s => res_energy m c s), (h c).2⟩)
    (Cert.ReferenceIdeal.Value.run (F := Ideal) m ρ)

end Cert.ReferenceIdeal.RefValue

end
-- ==== Proof.KernelFinal.lean ====
/-
  The idealized kernel program's result, at the ideal values.

  The output array [8192,1] is written back block by block: the point (row tile i, last column tile) writes rows
  1024 i … 1024 i + 1023, and what it writes is the accumulator, whose row r holds by then the inverse distances from
  particle 1024 i + r to every other particle. The eight write-backs tile the array, so it ends holding every
  particle's row sum; the host lines after the region add these up and subtract the total from the kinetic energy.
-/
import proofs.«131069_j41446434406802_2_alg».proof.Proof.BodyFrame
import proofs.«131069_j41446434406802_2_alg».proof.Proof.AccValue
import proofs.«131069_j41446434406802_2_alg».proof.Proof.RefEnergy
import proofs.«131069_j41446434406802_2_alg».proof.Proof.Spec
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body
open Cert.KernelIdeal.AccValue (acc_row)

variable (m : (ℓ : Loc nD τ sig) → Buf (Elt Ideal) ℓ) (ρ : Dev nD → PrngReg)

/-- Every particle's sum of inverse distances to the others, as the output array. -/
def rowSums (X : S8192x3.Idx → EReal) : S8192x1.Idx → EReal :=
  fun i => ∑ j : Fin 8192, Cert.Pairs.rinv X ⟨(i 0).val, idx2_lt0 i⟩ j

/-- The output window's block index at a point: the row tile, and column 0. -/
theorem idx_facts3 : ∀ t : Fin cfg0.N, win0_3.index t (0 : Fin 2) = t.val / 8 ∧ win0_3.index t (1 : Fin 2) = 0 :=
  (by decide +kernel : ∀ t : Fin grid0.N, _)

/-- What a point of the last column tile writes back is its block of the row sums. -/
theorem flushed3_eq (c : Dev nD) (t : Fin cfg0.N) (hf : (cfg0.win 3).flush t = true) :
    (dats m 0 c).flushed 3 t = ((cfg0.win 3).blk t).view.read (Elt Ideal) (rowSums (V m c main_v6)) := by
  have h7 : t.val % 8 = 7 := (flush0_3 t).mp hf
  show (cfg0.win 3).cut (grid0.coords t) ((dats m 0 c).after 3 t) = _
  rw [after0_3]
  funext y
  have hy : y = (ix2 (⟨(y 0).val, (y 0).isLt⟩ : Fin 1024) (0 : Fin 1) : S1024x1.Idx) := by
    funext a
    match a with
    | ⟨0, _⟩ => rfl
    | ⟨1, _⟩ => exact Subsingleton.elim (α := Fin 1) _ _
  rw [View.read_apply]
  show accAt m c t.val t.isLt y = rowSums (V m c main_v6) (((cfg0.win 3).blk t).view.emb y)
  rw [hy, acc_row m c t h7 ⟨(y 0).val, (y 0).isLt⟩]
  unfold rowSums
  refine Finset.sum_congr rfl fun j _ => ?_
  congr 1
  apply Fin.ext
  show 1024 * (t.val / 8) + (y 0).val = win0_3.index t (0 : Fin 2) * 1024 + 1 * (y 0).val
  rw [(idx_facts3 t).1]; omega

/-- An index of the output array is in a point's block iff each coordinate is in the block's range. -/
theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v14).slice (win0_3.rect t)).set ↔ _
  rw [View.set_slice_whole, Rect.mem_set_unit]
  exact Iff.rfl

/-- The eight write-backs tile the output array: it ends holding the row sums. -/
theorem final3 (c : Dev nD) : (dats m 0 c).arrAt 3 cfg0.N = rowSums (V m c main_v6) :=
  (dats m 0 c).arrAt_eq_of_cover 3 (rowSums (V m c main_v6)) (flushed3_eq m c) fun i => by
    have hi0 : (i 0).val < 8192 := (i 0).isLt
    have hi1 : (i 1).val < 1 := (i 1).isLt
    have hN : cfg0.N = 64 := N_0
    refine ⟨⟨8 * ((i 0).val / 1024) + 7, by omega⟩, (flush0_3 _).mpr (by show (8 * ((i 0).val / 1024) + 7) % 8 = 7; omega), ?_⟩
    rw [mem_blk3]
    obtain ⟨e0, e1⟩ := idx_facts3 ⟨8 * ((i 0).val / 1024) + 7, by omega⟩
    intro a
    match a with
    | ⟨0, _⟩ =>
      show win0_3.index _ (0 : Fin 2) * 1024 ≤ (i 0).val ∧ (i 0).val < win0_3.index _ (0 : Fin 2) * 1024 + 1024
      rw [e0]; dsimp only; omega
    | ⟨1, _⟩ =>
      show win0_3.index _ (1 : Fin 2) * 1 ≤ (i 1).val ∧ (i 1).val < win0_3.index _ (1 : Fin 2) * 1 + 1
      rw [e1]; omega

/-! ## The host lines around the region -/

/-- The positions as the region finds them are the scattered array (the same host lines in both programs). -/
theorem V_v6 (c : Dev nD) :
    V m c main_v6 = Cert.ReferenceIdeal.RefValue.Xref (m ((c : Thread nD τ).loc main_arg2)) (m ((c : Thread nD τ).loc main_arg3)) (m ((c : Thread nD τ).loc main_arg0)) := by
  show StableHlo.after hostOps0 (fun b => m (c, b)) (Proc.devRef .tc main_v6) = _
  after_results
  rfl

/-- The kinetic term, computed before the region by the same host lines in both programs. -/
theorem V_v9 (c : Dev nD) (s : S_.Idx) : V m c main_v9 s = Cert.Pairs.kinetic (m ((c : Thread nD τ).loc main_arg1)) := by
  have e : (V m c main_v9 : S_.Idx → EReal) = Cert.ReferenceIdeal.Read.val_main_v9 (F := Ideal) (m ((c : Thread nD τ).loc main_arg1)) := by
    show StableHlo.after hostOps0 (fun b => m (c, b)) (Proc.devRef .tc main_v9) = _
    after_results
    rfl
  rw [e]
  exact Cert.ReferenceIdeal.RefValue.v9_at _ s

/-- The host sum of a column array: 0 + Σ over its indices, that is the sum of its 8192 entries. -/
theorem tail_sum (x : S8192x1.Idx → EReal) (s : S_.Idx) :
    Host.reduceAdd (F := Ideal) x (constant (F := Ideal) S_ .f32 0x00000000#32) reducesTo_S8192x1_S_d0_1 h_S_ s
      = ∑ i : Fin 8192, x (ix2 i (0 : Fin 1)) := by
  simp only [Host.reduceAdd, Ideal.hostReduceAdd_def]
  rw [Ideal.hostReduceAdd_total reducesTo_S8192x1_S_d0_1 (fun b => b.elim0) x _ s]
  show Ideal.ofBits .f32 0x00000000#32 + _ = _
  rw [Ideal.ofBits_zero_f32, zero_add, sum_idx2]
  exact Finset.sum_congr rfl fun i _ => Fin.sum_univ_one _

/-- The result of the idealized kernel program: the energy of the scattered positions and the velocities. -/
theorem result_eq (c : Dev nD) :
    Pipeline.afterTail₀ cfgs (dats m) 0 (V0 m) [hostOps1] c main_v16
      = fun _ => Cert.Pairs.energy (V m c main_v6) (m ((c : Thread nD τ).loc main_arg1)) := by
  unfold Pipeline.afterTail₀
  show StableHlo.after hostOps1 _ (Proc.devRef .tc main_v16) = _
  after_results
  rw [Pipeline.withArrays_of_ne _ c (V0 m c) _ main_v9 (by exact (by decide : ∀ w, Pipeline.arrRef spec0 w ≠ main_v9))]
  rw [show Pipeline.withArrays (cfgs 0).spec c (V0 m c) (fun w => (dats m 0 c).arrAt w (cfgs 0).N) (Proc.devRef .tc main_v14)
      = rowSums (V m c main_v6) from (Pipeline.withArrays_arr spec0 launch0.win.arr_inj c _ _ 3).trans (final3 m c)]
  have e9 : V0 m c (Proc.devRef .tc main_v9) = (fun _ => Cert.Pairs.kinetic (m ((c : Thread nD τ).loc main_arg1))) :=
    funext (V_v9 m c)
  have e15 : (Host.reduceAdd (F := Ideal) (rowSums (V m c main_v6)) (constant (F := Ideal) S_ .f32 0x00000000#32) reducesTo_S8192x1_S_d0_1 h_S_ : S_.Idx → EReal)
      = (fun _ => ∑ i : Fin 8192, rowSums (V m c main_v6) (ix2 i (0 : Fin 1))) := funext (tail_sum _)
  rw [e9, e15]
  unfold Cert.Pairs.energy Cert.Pairs.total rowSums
  rfl

/-- Every weakly fair execution of the idealized kernel program ends with its result at the energy of the positions the
    region found and the velocities, and its four arguments unchanged. -/
theorem run_energy :
    θ_run defs (onTc (τ := τ) (main (F := Ideal))) ⟨m, fun _ => 0, ρ⟩ (fun r => ∀ c : Dev nD,
      r.2.mem ((c.tc : Thread nD τ).loc main_v16) = (fun _ => Cert.Pairs.energy (V m c main_v6) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v16 (Pipeline.mem_restRefs_of main_v16 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.lean ====
/-
  The claims about the pair-potential kernel and its reference.

  Both idealized programs compute the energy  ½·Σ q̇² − Σ_{i ≠ j} 1/√(max(|xᵢ − xⱼ|², ε))  of the same scattered
  positions (Spec.lean). The reference builds the whole [8192, 8192] table of inverse distances and sums it
  (RefEnergy.lean). The kernel walks an 8 × 8 grid of 1024 × 1024 tiles, adds each tile's row sums into an accumulator
  carried along a row of tiles — reset in the first column tile, the tile's own diagonal masked when the tile is
  diagonal, written out after the last column tile — and the host adds the 8192 row sums (Acc.lean, Body*.lean for the
  run; AccValue*.lean and KernelFinal.lean for the values). The two sums differ only in grouping, so they are equal in the
  commutative monoid of the extended reals, and no finiteness of the inputs is used. The word-level kernel program runs
  the same way (KernelBody*.lean), and the ideal pass rewrote nothing.
-/
import proofs.«131069_j41446434406802_2_alg».proof.Defs
import proofs.«131069_j41446434406802_2_alg».proof.Proof.Gen.Kernel
import proofs.«131069_j41446434406802_2_alg».proof.Proof.Gen.KernelIdeal
import proofs.«131069_j41446434406802_2_alg».proof.Proof.Gen.ReferenceIdeal
import proofs.«131069_j41446434406802_2_alg».proof.Proof.Gen.Pre_finite_inputs
import proofs.«131069_j41446434406802_2_alg».proof.Proof.KernelBodyFrame
import proofs.«131069_j41446434406802_2_alg».proof.Proof.BodyFrame
import proofs.«131069_j41446434406802_2_alg».proof.Proof.KernelFinal
import proofs.«131069_j41446434406802_2_alg».proof.Proof.RefEnergy

noncomputable section

namespace Cert.Proof

open Idealize.ShloMosaic Idealize.ShloMosaic.TcCoe Idealize.SL.Sem

/-- The word-level kernel program runs to the end, faults nowhere and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both idealized programs end at the energy of the same scattered positions
    and the same velocities. -/
theorem algebraic : Cert.algebraic_KernelIdeal_ReferenceIdeal := by
  intro m ρ m' ρ' _ hagree
  refine ⟨fun c => fun _ => Cert.Pairs.energy (Cert.KernelIdeal.Gen.V m c Cert.KernelIdeal.main_v6)
      (m ((c.tc : Thread Cert.KernelIdeal.nD Cert.KernelIdeal.τ).loc Cert.KernelIdeal.main_arg1)),
    Cert.KernelIdeal.Final.run_energy m ρ, ?_⟩
  refine (θ_run Cert.ReferenceIdeal.defs _ _).mono (fun _ h c => ⟨(h c).1.trans ?_, (h c).2⟩)
    (Cert.ReferenceIdeal.RefValue.run_energy m' ρ')
  rw [(hagree c).1, (hagree c).2.1, (hagree c).2.2.1, (hagree c).2.2.2]
  beta_reduce
  rw [Cert.KernelIdeal.Final.V_v6]
  rfl

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
